-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S800000 : Shape := ⟨1, ![800000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S800000 : S_.BroadcastsInDim S800000 (![] : Fin 0 → Fin S800000.rank)
  reducesTo_S800000_S_d0 : S800000.ReducesTo [0] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S16 .f32) (main_arg8 : FVec F S64x64 .f32) (main_arg9 : FVec F S64 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S64x16 .f32) (main_arg7 : FVec F S16 .f32) (main_arg8 : FVec F S64x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x500 .f32) (main_arg1 : FVec F S800000 .f32) (main_arg2 : FVec F S500x128 .f32) (main_arg3 : FVec F S128 .f32) (main_arg4 : FVec F S128x64 .f32) (main_arg5 : FVec F S64 .f32) (main_arg6 : FVec F S64x16 .f32) (main_arg7 : FVec F S16 .f32) (main_arg8 : FVec F S64x64 .f32) (main_arg9 : FVec F S64 .f32) (main_arg10 : IVec S800000 32) (main_arg11 : IVec S800000 32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x500 : Shape := ⟨2, ![50000, 500]⟩
abbrev S800000 : Shape := ⟨1, ![800000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S50000x128 : Shape := ⟨2, ![50000, 128]⟩
abbrev S5000x500 : Shape := ⟨2, ![5000, 500]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S50000x16 : Shape := ⟨2, ![50000, 16]⟩
abbrev S5000x16 : Shape := ⟨2, ![5000, 16]⟩
abbrev S800000x16 : Shape := ⟨2, ![800000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 71
  | .vmem => 36
  | .smem => 0
  | _ => 0

abbrev bufTy : (tb : Table) → Fin (tcTables nBuf tb) → BufTy
  | .hbm, ⟨0, _⟩ => ⟨S50000x500, .f32⟩
  | .hbm, ⟨1, _⟩ => ⟨S800000, .f32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x1, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x16, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x16, .f32⟩
  | .hbm, ⟨60, _⟩ => ⟨S800000x1, .f32⟩
  | .hbm, ⟨61, _⟩ => ⟨S800000x16, .f32⟩
  | .hbm, ⟨62, _⟩ => ⟨S800000x16, .f32⟩
  | .hbm, ⟨63, _⟩ => ⟨S_, .f32⟩
  | .hbm, ⟨64, _⟩ => ⟨S50000x16, .f32⟩
  | .hbm, ⟨65, _⟩ => ⟨S800000x1, .i32⟩
  | .hbm, ⟨66, _⟩ => ⟨S50000x16, .f32⟩
  | .hbm, ⟨67, _⟩ => ⟨S1x16, .f32⟩
  | .hbm, ⟨68, _⟩ => ⟨S50000x16, .f32⟩
  | .hbm, ⟨69, _⟩ => ⟨S1x64, .f32⟩
  | .hbm, ⟨70, _⟩ => ⟨S50000x64, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S64x64_S64x64_0_0 : ∀ a, (![0, 0] : Fin 2 → Nat) a + S64x64.size a ≤ S64x64.size a
  h_S64x64 : 0 < S64x64.numel
  dot_S5000x500_S500x128_S5000x128_1_0_0_1_n_n_wf : DotDims.WF S5000x500 S500x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x16_S5000x16_1_0_0_1_n_n_wf : DotDims.WF S5000x64 S64x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S50000x500.size a
  hwx0_0 : ∀ i : grid0.Coords, EltTy.bits .f32 = 32 ∨ (Rect.block (s := S50000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S50000x16.size a
  hwx4_2 : ∀ i : grid4.Coords, EltTy.bits .f32 = 32 ∨ (Rect.block (s := S50000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S50000x16.size a
  hwx5_0 : ∀ i : grid5.Coords, EltTy.bits .f32 = 32 ∨ (Rect.block (s := S50000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S50000x16.size a
  hwx5_2 : ∀ i : grid5.Coords, EltTy.bits .f32 = 32 ∨ (Rect.block (s := S50000x16) S5000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v31) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v49) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x500 : Shape := ⟨2, ![50000, 500]⟩
abbrev S800000 : Shape := ⟨1, ![800000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x16 : Shape := ⟨2, ![50000, 16]⟩
abbrev S800000x16 : Shape := ⟨2, ![800000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x500, .f32⟩
  | .hbm, ⟨1, _⟩ => ⟨S800000, .f32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S64x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S800000x1, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x16, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x16, .f32⟩
  | .hbm, ⟨68, _⟩ => ⟨S800000x1, .f32⟩
  | .hbm, ⟨69, _⟩ => ⟨S800000x16, .f32⟩
  | .hbm, ⟨70, _⟩ => ⟨S800000x16, .f32⟩
  | .hbm, ⟨71, _⟩ => ⟨S_, .f32⟩
  | .hbm, ⟨72, _⟩ => ⟨S50000x16, .f32⟩
  | .hbm, ⟨73, _⟩ => ⟨S800000x1, .i32⟩
  | .hbm, ⟨74, _⟩ => ⟨S50000x16, .f32⟩
  | .hbm, ⟨75, _⟩ => ⟨S1x16, .f32⟩
  | .hbm, ⟨76, _⟩ => ⟨S50000x16, .f32⟩
  | .hbm, ⟨77, _⟩ => ⟨S50000x16, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x16, .f32⟩
  | .hbm, ⟨85, _⟩ => ⟨S50000x16, .f32⟩
  | .hbm, ⟨86, _⟩ => ⟨S50000x16, .f32⟩
  | .hbm, ⟨87, _⟩ => ⟨S_, .f32⟩
  | .hbm, ⟨88, _⟩ => ⟨S50000, .f32⟩
  | .hbm, ⟨89, _⟩ => ⟨S50000x1, .f32⟩
  | .hbm, ⟨90, _⟩ => ⟨S50000x1, .f32⟩
  | .hbm, ⟨91, _⟩ => ⟨S50000x16, .f32⟩
  | .hbm, ⟨92, _⟩ => ⟨S50000x16, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x500_S500x128_S50000x128_1_0_0_1_n_n_wf : DotDims.WF S50000x500 S500x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x64_S64x64_S50000x64_1_0_0_1_n_n_wf : DotDims.WF S50000x64 S64x64 S50000x64 [1] [0] [0] [1] [] []

variable [Facts₀]

def dot_S50000x500_S500x128_S50000x128_1_0_0_1_n_n : DotDims S50000x500 S500x128 S50000x128 where
  lhsContracting := [1]
  rhsContracting := [0]
  lhsNonContracting := [0]
  rhsNonContracting := [1]
  lhsBatch := []
  rhsBatch := []
  wf := dot_S50000x500_S500x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its two results kept.

  The program is seven grid regions among four stretches of host operations.  Its run ends with every unscoped buffer
  of the TensorCore at the contents of the last segment boundary; read at the two result buffers this names what the
  program returns, beside the argument arrays, which no segment writes.
-/
import proofs.«156452_j86887188398704_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the first result buffer and the second
    at the last boundary's contents and the argument arrays as launched. -/
theorem run_results : θ_run defs (onTc (τ := τ) (main (F := F))) ⟨m, fun _ => 0, ρ⟩ (fun r => ∀ c : Dev nD,
      r.2.mem ((c.tc : Thread nD τ).loc main_v47) = W11 m ρ c (Proc.devRef .tc main_v47)
      ∧ r.2.mem ((c.tc : Thread nD τ).loc main_v49) = W11 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v47 (by decide)),
       h c _ (mem_uc main_v49 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunValue

end
-- ==== Proof.KernelHost.lean ====
/-
  The host stretches of the idealized kernel, read over any buffer contents.

  Between the dense regions the program aggregates along the edges: it wraps a negative source index by the number of
  nodes, picks the support's rows at those indices, scales row `e` by the value of edge `e`, and adds the rows into a zero
  array at the edges' target rows.  Each stretch also re-lays a bias vector as a one-row matrix for the region that
  follows.  The three aggregations differ only in the width of the rows.  Nothing here depends on what a float is.
-/
import proofs.«156452_j86887188398704_1_alg».proof.Proof.Gen.KernelIdeal.Launch
import Idealize.ShloMosaic.Lib.StableHlo.Run

set_option maxRecDepth 16384

noncomputable section

namespace Cert.KernelIdeal.HostSteps

open Cert.KernelIdeal Cert.KernelIdeal.Gen
open Idealize.ShloMosaic Idealize.ShloMosaic.TcCoe Idealize.SL.Sem Idealize.ShloMosaic.StableHlo

variable {F : FTy → Type} [FloatOps F]

/-- The rows to pick: the source index of every edge, a negative one wrapped by the number of nodes, as a column. -/
def edgeRows (dst : (⟨S800000, .i32⟩ : BufTy).Contents (Elt F)) : (⟨S800000x1, .i32⟩ : BufTy).Contents (Elt F) :=
  broadcastInDim S800000x1 ![0] bcast_S800000_S800000x1_0
    (select (cmpi .slt dst (broadcastInDim S800000 ![] bcast_S_S800000 (constantI S_ 32 0#32)))
      (addi dst (broadcastInDim S800000 ![] bcast_S_S800000 (constantI S_ 32 50000#32))) dst)

/-- The aggregation at width 128: row `e` of the support picked at the wrapped source index of edge `e`, scaled by the edge's
    value, and added into row `src e` of a zero array. -/
def agg128 (S : (⟨S50000x128, .f32⟩ : BufTy).Contents (Elt F)) (ev : (⟨S800000, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 src)
    (mulf (Host.gather gather_S50000x128_S800000x1_S800000x128_1_0_n_n_0_1_1128 S (edgeRows dst))
      (broadcastInDim S800000x128 ![0, 1] bcast_S800000x1_S800000x128_0_1 (broadcastInDim S800000x1 ![0] bcast_S800000_S800000x1_0 ev)))

/-- The aggregation at width 64: row `e` of the support picked at the wrapped source index of edge `e`, scaled by the edge's
    value, and added into row `src e` of a zero array. -/
def agg64 (S : (⟨S50000x64, .f32⟩ : BufTy).Contents (Elt F)) (ev : (⟨S800000, .f32⟩ : BufTy).Contents (Elt F))
    (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 src)
    (mulf (Host.gather gather_S50000x64_S800000x1_S800000x64_1_0_n_n_0_1_164 S (edgeRows dst))
      (broadcastInDim S800000x64 ![0, 1] bcast_S800000x1_S800000x64_0_1 (broadcastInDim S800000x1 ![0] bcast_S800000_S800000x1_0 ev)))

/-- The aggregation at width 16: row `e` of the support picked at the wrapped source index of edge `e`, scaled by the edge's
    value, and added into row `src e` of a zero array. -/
def agg16 (S : (⟨S50000x16, .f32⟩ : BufTy).Contents (Elt F)) (ev : (⟨S800000, .f32⟩ : BufTy).Contents (Elt F))
    (src dst : (⟨S800000, .i32⟩ : BufTy).Contents (Elt F)) : (⟨S50000x16, .f32⟩ : BufTy).Contents (Elt F) :=
  Host.scatterAdd scatter_S50000x16_S800000x1_S800000x16_1_0_0_1
    (broadcastInDim S50000x16 ![] bcast_S_S50000x16 (constant S_ .f32 0x00000000#32))
    (broadcastInDim S800000x1 ![0] bcast_S800000_S800000x1_0 src)
    (mulf (Host.gather gather_S50000x16_S800000x1_S800000x16_1_0_n_n_0_1_116 S (edgeRows dst))
      (broadcastInDim S800000x16 ![0, 1] bcast_S800000x1_S800000x16_0_1 (broadcastInDim S800000x1 ![0] bcast_S800000_S800000x1_0 ev)))

set_option maxHeartbeats 4000000 in
/-- After the host stretch before region 1: the aggregated array, from the support and the edge arrays as the stretch finds them. -/
theorem host1_agg (W : Valuation τ sig (Elt F)) :
    after hostOps1 W (Proc.devRef .tc main_v13)
      = agg128 (W (Proc.devRef .tc main_v0)) (W (Proc.devRef .tc main_arg1)) (W (Proc.devRef .tc main_arg10)) (W (Proc.devRef .tc main_arg11)) := by
  after_results_simp
  rfl

set_option maxHeartbeats 4000000 in
/-- After the same stretch: the bias re-laid as one row. -/
theorem host1_bias (W : Valuation τ sig (Elt F)) :
    after hostOps1 W (Proc.devRef .tc main_v14) = shapeCast S1x128 (W (Proc.devRef .tc main_arg3)) shapeCasts_S128_S1x128 := by
  after_results_simp
  rfl

set_option maxHeartbeats 4000000 in
/-- After the host stretch before region 3: the aggregated array, from the support and the edge arrays as the stretch finds them. -/
theorem host3_agg (W : Valuation τ sig (Elt F)) :
    after hostOps3 W (Proc.devRef .tc main_v29)
      = agg64 (W (Proc.devRef .tc main_v16)) (W (Proc.devRef .tc main_arg1)) (W (Proc.devRef .tc main_arg10)) (W (Proc.devRef .tc main_arg11)) := by
  after_results_simp
  rfl

set_option maxHeartbeats 4000000 in
/-- After the same stretch: the bias re-laid as one row. -/
theorem host3_bias (W : Valuation τ sig (Elt F)) :
    after hostOps3 W (Proc.devRef .tc main_v30) = shapeCast S1x64 (W (Proc.devRef .tc main_arg5)) shapeCasts_S64_S1x64 := by
  after_results_simp
  rfl

set_option maxHeartbeats 4000000 in
/-- After the host stretch before region 5: the aggregated array, from the support and the edge arrays as the stretch finds them. -/
theorem host5_agg (W : Valuation τ sig (Elt F)) :
    after hostOps5 W (Proc.devRef .tc main_v45)
      = agg16 (W (Proc.devRef .tc main_v32)) (W (Proc.devRef .tc main_arg1)) (W (Proc.devRef .tc main_arg10)) (W (Proc.devRef .tc main_arg11)) := by
  after_results_simp
  rfl

set_option maxHeartbeats 4000000 in
/-- After the same stretch: the bias re-laid as one row. -/
theorem host5_bias (W : Valuation τ sig (Elt F)) :
    after hostOps5 W (Proc.devRef .tc main_v46) = shapeCast S1x16 (W (Proc.devRef .tc main_arg7)) shapeCasts_S16_S1x16 := by
  after_results_simp
  rfl

/-- After the last stretch: the last bias re-laid as one row. -/
theorem host6_bias (W : Valuation τ sig (Elt F)) :
    after hostOps6 W (Proc.devRef .tc main_v48) = shapeCast S1x64 (W (Proc.devRef .tc main_arg9)) shapeCasts_S64_S1x64 := by
  after_results_simp
  rfl

end Cert.KernelIdeal.HostSteps

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Product0.lean ====
/-
  The dense product of region 0, from blocks to the whole array.

  The grid has ten points; point `t` multiplies rows `5000·t … 5000·t + 4999` of the left operand — the whole width
  `500` — with the whole right operand, `[500, 128]`, into a zero accumulator, and writes the `[5000, 128]` result back
  at the same rows.  At the ideal values a product into zero is a plain sum, and a change of float format does nothing,
  so entry `(r, q)` of the array the region leaves is the sum over `k` of `left (r, k) · right (k, q)`, whatever the
  tiling: the ten row blocks cover the `50000` rows.
-/
import proofs.«156452_j86887188398704_1_alg».proof.Proof.Gen.KernelIdeal.Frame
import proofs.«156452_j86887188398704_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, k)` of the left operand, for the row of the result index `i`. -/
abbrev lrow (i : S50000x128.Idx) (k : Fin 500) : S50000x500.Idx := fun a => match a with
  | ⟨0, _⟩ => ⟨(i 0).val, (i 0).isLt⟩
  | ⟨1, _⟩ => ⟨k.val, k.isLt⟩
/-- Entry `(k, q)` of the right operand, for the column of the result index `i`. -/
abbrev rcol (i : S50000x128.Idx) (k : Fin 500) : S500x128.Idx := fun a => match a with
  | ⟨0, _⟩ => ⟨k.val, k.isLt⟩
  | ⟨1, _⟩ => ⟨(i 1).val, (i 1).isLt⟩

/-- The whole product: entry `i` is the sum over the shared coordinate. -/
def prod (A : (⟨S50000x500, .f32⟩ : BufTy).Contents (Elt Ideal)) (B : (⟨S500x128, .f32⟩ : BufTy).Contents (Elt Ideal)) :
    (⟨S50000x128, .f32⟩ : BufTy).Contents (Elt Ideal) :=
  fun i => ∑ k : Fin 500, A (lrow i k) * B (rcol i k)

/-- One block's product, read at `(p, q)`: the row `p` of the left block against the column `q` of the right one. -/
theorem pay_at (x0 : Vec Ideal S5000x500 .f32) (x1 : Vec Ideal S500x128 .f32) (p : Fin 5000) (q : Fin 128) :
    k0_pay1 x0 x1 (ix2 p q) = ∑ k : Fin 500, x0 (ix2 p k) * x1 (ix2 k q) := by
  unfold k0_pay1
  exact Cert.PlainProduct.matmul_nn_apply (dot_S5000x500_S500x128_S5000x128_1_0_0_1_n_n).wf none _ _ p q

/-- Where the three windows' blocks sit at point `t`: the left operand's and the result's at the same block row, the
    right operand whole, and the block row below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x500) hz, View.ld_unit_zero (S := S500x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = prod (V c main_arg0) (V c main_arg2) (((cfg0.win 2).blk t).view.emb (ix2 p q))
  refine (pay_at (iblk0 V c 0 t) (iblk0 V c 1 t) p q).trans ?_
  unfold prod
  refine Finset.sum_congr rfl fun k _ => ?_
  have hl : iblk0 V c 0 t (ix2 p k) = V c main_arg0 (lrow (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 500 + 1 * k.val = k.val; omega
  have hr : iblk0 V c 1 t (ix2 k q) = V c main_arg2 (rcol (((cfg0.win 2).blk t).view.emb (ix2 p q)) k) := by
    show V c main_arg2 (((cfg0.win 1).blk t).view.emb (ix2 k q)) = _
    refine congrArg (V c main_arg2) (funext fun a => Fin.ext ?_)
    match a with
    | ⟨0, _⟩ => show win0_1.index t (0 : Fin 2) * 500 + 1 * k.val = k.val; omega
    | ⟨1, _⟩ => show win0_1.index t (1 : Fin 2) * 128 + 1 * q.val = win0_2.index t (1 : Fin 2) * 128 + 1 * q.val; omega
  rw [hl, hr]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks cover the array: row `r` is in the block of point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves is the whole product of the two arrays it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Product0

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Rectify1.lean ====
/-
  The bias-and-rectify step of region 1, from blocks to the whole array.

  Point `t` of the ten-point grid takes rows `5000·t … 5000·t + 4999` of the aggregated array, adds the one-row bias
  `[1, 128]` to every row, takes the maximum with zero, and writes the rows back in place.  So entry `(r, q)` of the
  array the region leaves is `max (agg (r, q) + bias (0, q)) 0`, and the ten row blocks cover the `50000` rows.
-/
import proofs.«156452_j86887188398704_1_alg».proof.Proof.Gen.KernelIdeal.Frame
import proofs.«156452_j86887188398704_1_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Rectify1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias entry that meets the result index `i`: row `0`, the column of `i`. -/
abbrev brow (i : S50000x128.Idx) : S1x128.Idx := fun a => match a with
  | ⟨0, _⟩ => ⟨0, Nat.one_pos⟩
  | ⟨1, _⟩ => ⟨(i 1).val, (i 1).isLt⟩

/-- The whole step: every entry plus its column's bias, rectified. -/
def biasRelu (A : (⟨S50000x128, .f32⟩ : BufTy).Contents (Elt Ideal)) (B : (⟨S1x128, .f32⟩ : BufTy).Contents (Elt Ideal)) :
    (⟨S50000x128, .f32⟩ : BufTy).Contents (Elt Ideal) :=
  fun i => max (A i + B (brow i)) (Ideal.ofBits .f32 0x00000000#32)

/-- One block's result, read at `(p, q)`. -/
theorem pay_at (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  show max ((shapeCast S5000x128 x0 shapeCasts_S5000x128_S5000x128) (ix2 p q)
      + broadcastTo S5000x128 (shapeCast S1x128 x1 shapeCasts_S1x128_S1x128) broadcasts_S1x128_S5000x128 (ix2 p q)) _ = _
  rw [shapeCast_self, shapeCast_self, Cert.RowsProduct.broadcastTo_1n_an_apply]
  rfl

/-- Where the three windows' blocks sit at point `t`: the aggregated array's and the result's at the same block row, the
    bias whole, and the block row below ten. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block row is some point's. -/
theorem idx_onto : ∀ (q0 : Fin 10), ∃ t : Fin cfg1.N, win1_2.index t = ![q0.val, 0] :=
  (by decide +kernel : ∀ (q0 : Fin 10), ∃ t : Fin grid1.N, win1_2.index t = ![q0.val, 0])

/-- What point `t` writes back is block `t` of the whole step applied to the arrays the region finds. -/
theorem flushed_eq (c : Dev nD) (t : Fin cfg1.N) :
    (dat1 V c).flushed 2 t = ((cfg1.win 2).blk t).view.read (Elt Ideal) (biasRelu (V c main_v13) (V c main_v14)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = biasRelu (V c main_v13) (V c main_v14) (((cfg1.win 2).blk t).view.emb (ix2 p q))
  refine (pay_at (iblk1 V c 0 t) (iblk1 V c 1 t) p q).trans ?_
  unfold biasRelu
  have hl : iblk1 V c 0 t (ix2 p q) = V c main_v13 (((cfg1.win 2).blk t).view.emb (ix2 p q)) := by
    show V c main_v13 (((cfg1.win 0).blk t).view.emb (ix2 p q)) = _
    refine congrArg (V c main_v13) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hr : iblk1 V c 1 t (ix2 (0 : Fin 1) q) = V c main_v14 (brow (((cfg1.win 2).blk t).view.emb (ix2 p q))) := by
    show V c main_v14 (((cfg1.win 1).blk t).view.emb (ix2 (0 : Fin 1) q)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hl, hr]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- The ten row blocks cover the array: row `r` is in the block of point `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the region leaves is the whole step applied to the two arrays it found. -/
theorem final (c : Dev nD) : (dat1 V c).arrAt 2 cfg1.N = biasRelu (V c main_v13) (V c main_v14) :=
  (dat1 V c).arrAt_eq_of_cover 2 (biasRelu (V c main_v13) (V c main_v14)) (fun t _ => flushed_eq V c t) cover

end Cert.KernelIdeal.Rectify1

end
-- ==== Proof.Product2.lean ====
/-
  The dense product of region 2, from blocks to the whole array.

  The grid has ten points; point `t` multiplies rows `5000·t … 5000·t + 4999` of the left operand — the whole width
  `128` — with the whole right operand, `[128, 64]`, into a zero accumulator, and writes the `[5000, 64]` result back
  at the same rows.  At the ideal values a product into zero is a plain sum, and a change of float format does nothing,
  so entry `(r, q)` of the array the region leaves is the sum over `k` of `left (r, k) · right (k, q)`, whatever the
  tiling: the ten row blocks cover the `50000` rows.
-/
import proofs.«156452_j86887188398704_1_alg».proof.Proof.Gen.KernelIdeal.Frame
import proofs.«156452_j86887188398704_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, k)` of the left operand, for the row of the result index `i`. -/
abbrev lrow (i : S50000x64.Idx) (k : Fin 128) : S50000x128.Idx := fun a => match a with
  | ⟨0, _⟩ => ⟨(i 0).val, (i 0).isLt⟩
  | ⟨1, _⟩ => ⟨k.val, k.isLt⟩
/-- Entry `(k, q)` of the right operand, for the column of the result index `i`. -/
abbrev rcol (i : S50000x64.Idx) (k : Fin 128) : S128x64.Idx := fun a => match a with
  | ⟨0, _⟩ => ⟨k.val, k.isLt⟩
  | ⟨1, _⟩ => ⟨(i 1).val, (i 1).isLt⟩

/-- The whole product: entry `i` is the sum over the shared coordinate. -/
def prod (A : (⟨S50000x128, .f32⟩ : BufTy).Contents (Elt Ideal)) (B : (⟨S128x64, .f32⟩ : BufTy).Contents (Elt Ideal)) :
    (⟨S50000x64, .f32⟩ : BufTy).Contents (Elt Ideal) :=
  fun i => ∑ k : Fin 128, A (lrow i k) * B (rcol i k)

/-- One block's product, read at `(p, q)`: the row `p` of the left block against the column `q` of the right one. -/
theorem pay_at (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  show FloatOps.matmul (F := Ideal) dot_S5000x128_S128x64_S5000x64_1_0_0_1_n_n none
      (truncf .bf16 (shapeCast S5000x128 x0 shapeCasts_S5000x128_S5000x128 : FVec Ideal S5000x128 .f32) bitsLt_bf16_f32)
      (truncf .bf16 (x1 : FVec Ideal S128x64 .f32) bitsLt_bf16_f32)
      (constant S5000x64 .f32 0x00000000#32) (ix2 p q) = _
  rw [shapeCast_self]
  exact Cert.PlainProduct.matmul_nn_apply (dot_S5000x128_S128x64_S5000x64_1_0_0_1_n_n).wf none _ _ p q

/-- Where the three windows' blocks sit at point `t`: the left operand's and the result's at the same block row, the
    right operand whole, and the block row below ten. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block row is some point's. -/
theorem idx_onto : ∀ (q0 : Fin 10), ∃ t : Fin cfg2.N, win2_2.index t = ![q0.val, 0] :=
  (by decide +kernel : ∀ (q0 : Fin 10), ∃ t : Fin grid2.N, win2_2.index t = ![q0.val, 0])

/-- What point `t` writes back is block `t` of the whole product of the arrays the region finds. -/
theorem flushed_eq (c : Dev nD) (t : Fin cfg2.N) :
    (dat2 V c).flushed 2 t = ((cfg2.win 2).blk t).view.read (Elt Ideal) (prod (V c main_v15) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = prod (V c main_v15) (V c main_arg4) (((cfg2.win 2).blk t).view.emb (ix2 p q))
  refine (pay_at (iblk2 V c 0 t) (iblk2 V c 1 t) p q).trans ?_
  unfold prod
  refine Finset.sum_congr rfl fun k _ => ?_
  have hl : iblk2 V c 0 t (ix2 p k) = V c main_v15 (lrow (((cfg2.win 2).blk t).view.emb (ix2 p q)) k) := by
    show V c main_v15 (((cfg2.win 0).blk t).view.emb (ix2 p k)) = _
    refine congrArg (V c main_v15) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hr : iblk2 V c 1 t (ix2 k q) = V c main_arg4 (rcol (((cfg2.win 2).blk t).view.emb (ix2 p q)) k) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v16).slice (win2_2.rect t)).set ↔ _
  rw [View.set_slice_whole, Rect.mem_set_unit]
  exact Iff.rfl

/-- The ten row blocks cover the array: row `r` is in the block of point `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves is the whole product of the two arrays it found. -/
theorem final (c : Dev nD) : (dat2 V c).arrAt 2 cfg2.N = prod (V c main_v15) (V c main_arg4) :=
  (dat2 V c).arrAt_eq_of_cover 2 (prod (V c main_v15) (V c main_arg4)) (fun t _ => flushed_eq V c t) cover

end Cert.KernelIdeal.Product2

end
-- ==== Proof.Rectify3.lean ====
/-
  The bias-and-rectify step of region 3, from blocks to the whole array.

  Point `t` of the ten-point grid takes rows `5000·t … 5000·t + 4999` of the aggregated array, adds the one-row bias
  `[1, 64]` to every row, takes the maximum with zero, and writes the rows back in place.  So entry `(r, q)` of the
  array the region leaves is `max (agg (r, q) + bias (0, q)) 0`, and the ten row blocks cover the `50000` rows.
-/
import proofs.«156452_j86887188398704_1_alg».proof.Proof.Gen.KernelIdeal.Frame
import proofs.«156452_j86887188398704_1_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Rectify3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias entry that meets the result index `i`: row `0`, the column of `i`. -/
abbrev brow (i : S50000x64.Idx) : S1x64.Idx := fun a => match a with
  | ⟨0, _⟩ => ⟨0, Nat.one_pos⟩
  | ⟨1, _⟩ => ⟨(i 1).val, (i 1).isLt⟩

/-- The whole step: every entry plus its column's bias, rectified. -/
def biasRelu (A : (⟨S50000x64, .f32⟩ : BufTy).Contents (Elt Ideal)) (B : (⟨S1x64, .f32⟩ : BufTy).Contents (Elt Ideal)) :
    (⟨S50000x64, .f32⟩ : BufTy).Contents (Elt Ideal) :=
  fun i => max (A i + B (brow i)) (Ideal.ofBits .f32 0x00000000#32)

/-- One block's result, read at `(p, q)`. -/
theorem pay_at (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  show max ((shapeCast S5000x64 x0 shapeCasts_S5000x64_S5000x64) (ix2 p q)
      + broadcastTo S5000x64 (shapeCast S1x64 x1 shapeCasts_S1x64_S1x64) broadcasts_S1x64_S5000x64 (ix2 p q)) _ = _
  rw [shapeCast_self, shapeCast_self, Cert.RowsProduct.broadcastTo_1n_an_apply]
  rfl

/-- Where the three windows' blocks sit at point `t`: the aggregated array's and the result's at the same block row, the
    bias whole, and the block row below ten. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every block row is some point's. -/
theorem idx_onto : ∀ (q0 : Fin 10), ∃ t : Fin cfg3.N, win3_2.index t = ![q0.val, 0] :=
  (by decide +kernel : ∀ (q0 : Fin 10), ∃ t : Fin grid3.N, win3_2.index t = ![q0.val, 0])

/-- What point `t` writes back is block `t` of the whole step applied to the arrays the region finds. -/
theorem flushed_eq (c : Dev nD) (t : Fin cfg3.N) :
    (dat3 V c).flushed 2 t = ((cfg3.win 2).blk t).view.read (Elt Ideal) (biasRelu (V c main_v29) (V c main_v30)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = biasRelu (V c main_v29) (V c main_v30) (((cfg3.win 2).blk t).view.emb (ix2 p q))
  refine (pay_at (iblk3 V c 0 t) (iblk3 V c 1 t) p q).trans ?_
  unfold biasRelu
  have hl : iblk3 V c 0 t (ix2 p q) = V c main_v29 (((cfg3.win 2).blk t).view.emb (ix2 p q)) := by
    show V c main_v29 (((cfg3.win 0).blk t).view.emb (ix2 p q)) = _
    refine congrArg (V c main_v29) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hr : iblk3 V c 1 t (ix2 (0 : Fin 1) q) = V c main_v30 (brow (((cfg3.win 2).blk t).view.emb (ix2 p q))) := by
    show V c main_v30 (((cfg3.win 1).blk t).view.emb (ix2 (0 : Fin 1) q)) = _
    refine congrArg (V c main_v30) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hl, hr]

/-- An index of the array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v31).slice (win3_2.rect t)).set ↔ _
  rw [View.set_slice_whole, Rect.mem_set_unit]
  exact Iff.rfl

/-- The ten row blocks cover the array: row `r` is in the block of point `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array the region leaves is the whole step applied to the two arrays it found. -/
theorem final (c : Dev nD) : (dat3 V c).arrAt 2 cfg3.N = biasRelu (V c main_v29) (V c main_v30) :=
  (dat3 V c).arrAt_eq_of_cover 2 (biasRelu (V c main_v29) (V c main_v30)) (fun t _ => flushed_eq V c t) cover

end Cert.KernelIdeal.Rectify3

end
-- ==== Proof.Product4.lean ====
/-
  The dense product of region 4, from blocks to the whole array.

  The grid has ten points; point `t` multiplies rows `5000·t … 5000·t + 4999` of the left operand — the whole width
  `64` — with the whole right operand, `[64, 16]`, into a zero accumulator, and writes the `[5000, 16]` result back
  at the same rows.  At the ideal values a product into zero is a plain sum, and a change of float format does nothing,
  so entry `(r, q)` of the array the region leaves is the sum over `k` of `left (r, k) · right (k, q)`, whatever the
  tiling: the ten row blocks cover the `50000` rows.
-/
import proofs.«156452_j86887188398704_1_alg».proof.Proof.Gen.KernelIdeal.Frame
import proofs.«156452_j86887188398704_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Product4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, k)` of the left operand, for the row of the result index `i`. -/
abbrev lrow (i : S50000x16.Idx) (k : Fin 64) : S50000x64.Idx := fun a => match a with
  | ⟨0, _⟩ => ⟨(i 0).val, (i 0).isLt⟩
  | ⟨1, _⟩ => ⟨k.val, k.isLt⟩
/-- Entry `(k, q)` of the right operand, for the column of the result index `i`. -/
abbrev rcol (i : S50000x16.Idx) (k : Fin 64) : S64x16.Idx := fun a => match a with
  | ⟨0, _⟩ => ⟨k.val, k.isLt⟩
  | ⟨1, _⟩ => ⟨(i 1).val, (i 1).isLt⟩

/-- The whole product: entry `i` is the sum over the shared coordinate. -/
def prod (A : (⟨S50000x64, .f32⟩ : BufTy).Contents (Elt Ideal)) (B : (⟨S64x16, .f32⟩ : BufTy).Contents (Elt Ideal)) :
    (⟨S50000x16, .f32⟩ : BufTy).Contents (Elt Ideal) :=
  fun i => ∑ k : Fin 64, A (lrow i k) * B (rcol i k)

/-- One block's product, read at `(p, q)`: the row `p` of the left block against the column `q` of the right one. -/
theorem pay_at (x0 : Vec Ideal S5000x64 .f32) (x1 : Vec Ideal S64x16 .f32) (p : Fin 5000) (q : Fin 16) :
    k4_pay1 x0 x1 (ix2 p q) = ∑ k : Fin 64, x0 (ix2 p k) * x1 (ix2 k q) := by
  unfold k4_pay1
  show FloatOps.matmul (F := Ideal) dot_S5000x64_S64x16_S5000x16_1_0_0_1_n_n none
      (truncf .bf16 (shapeCast S5000x64 x0 shapeCasts_S5000x64_S5000x64 : FVec Ideal S5000x64 .f32) bitsLt_bf16_f32)
      (truncf .bf16 (x1 : FVec Ideal S64x16 .f32) bitsLt_bf16_f32)
      (constant S5000x16 .f32 0x00000000#32) (ix2 p q) = _
  rw [shapeCast_self]
  exact Cert.PlainProduct.matmul_nn_apply (dot_S5000x64_S64x16_S5000x16_1_0_0_1_n_n).wf none _ _ p q

/-- Where the three windows' blocks sit at point `t`: the left operand's and the result's at the same block row, the
    right operand whole, and the block row below ten. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every block row is some point's. -/
theorem idx_onto : ∀ (q0 : Fin 10), ∃ t : Fin cfg4.N, win4_2.index t = ![q0.val, 0] :=
  (by decide +kernel : ∀ (q0 : Fin 10), ∃ t : Fin grid4.N, win4_2.index t = ![q0.val, 0])

/-- What point `t` writes back is block `t` of the whole product of the arrays the region finds. -/
theorem flushed_eq (c : Dev nD) (t : Fin cfg4.N) :
    (dat4 V c).flushed 2 t = ((cfg4.win 2).blk t).view.read (Elt Ideal) (prod (V c main_v31) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k4_pay1 (iblk4 V c 0 t) (iblk4 V c 1 t) (ix2 p q)
    = prod (V c main_v31) (V c main_arg6) (((cfg4.win 2).blk t).view.emb (ix2 p q))
  refine (pay_at (iblk4 V c 0 t) (iblk4 V c 1 t) p q).trans ?_
  unfold prod
  refine Finset.sum_congr rfl fun k _ => ?_
  have hl : iblk4 V c 0 t (ix2 p k) = V c main_v31 (lrow (((cfg4.win 2).blk t).view.emb (ix2 p q)) k) := by
    show V c main_v31 (((cfg4.win 0).blk t).view.emb (ix2 p k)) = _
    refine congrArg (V c main_v31) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * k.val = k.val; omega
  have hr : iblk4 V c 1 t (ix2 k q) = V c main_arg6 (rcol (((cfg4.win 2).blk t).view.emb (ix2 p q)) k) := by
    show V c main_arg6 (((cfg4.win 1).blk t).view.emb (ix2 k q)) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 16 + 1 * q.val = win4_2.index t (1 : Fin 2) * 16 + 1 * q.val; omega
  rw [hl, hr]

/-- An index of the array is in point `t`'s block iff each coordinate is in the block's range on its axis. -/
theorem mem_blk (t : Fin cfg4.N) (i : S50000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v32).slice (win4_2.rect t)).set ↔ _
  rw [View.set_slice_whole, Rect.mem_set_unit]
  exact Iff.rfl

/-- The ten row blocks cover the array: row `r` is in the block of point `r / 5000`. -/
theorem cover (i : S50000x16.Idx) : ∃ t : Fin cfg4.N, (cfg4.win 2).flush t = true ∧ i ∈ ((cfg4.win 2).blk t).view.set := by
  have hi0 : (i 0).val < 50000 := (i 0).isLt
  have hi1 : (i 1).val < 16 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- The array the region leaves is the whole product of the two arrays it found. -/
theorem final (c : Dev nD) : (dat4 V c).arrAt 2 cfg4.N = prod (V c main_v31) (V c main_arg6) :=
  (dat4 V c).arrAt_eq_of_cover 2 (prod (V c main_v31) (V c main_arg6)) (fun t _ => flushed_eq V c t) cover

end Cert.KernelIdeal.Product4

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.Softmax5.lean ====
/-
  The bias-and-log-softmax step of region 5, from blocks to the whole array.

  Point `t` of the ten-point grid takes rows `5000·t … 5000·t + 4999` of the aggregated `[50000, 16]` array, adds the
  one-row bias to every row, and normalises each row by itself: with `z` a row plus the bias and `M` the larger of `-∞`
  and the row's running maximum from `-∞`, entry `q` becomes `(z q - M) - log (∑ k, exp (z k - M))`.  A row is touched by
  one point only and the sixteen columns are never split, so the array the region leaves is that row function applied to
  every row of the array it found; the ten row blocks cover the `50000` rows.
-/
import proofs.«156452_j86887188398704_1_alg».proof.Proof.Gen.KernelIdeal.Frame
import proofs.«156452_j86887188398704_1_alg».proof.Proof.LibRowsProduct
import proofs.«156452_j86887188398704_1_alg».proof.Proof.LibBroadcast
import proofs.«156452_j86887188398704_1_alg».proof.Proof.LibRowFolds
import Idealize.ShloMosaic.Lib.Pipeline.Value
import Idealize.ShloMosaic.Lib.ValueIdx
import Idealize.ShloMosaic.PureOps.Ideal.Laws

set_option maxRecDepth 16384

noncomputable section

namespace Cert.KernelIdeal.Softmax5

open Cert.KernelIdeal Cert.KernelIdeal.Gen
open Idealize.ShloMosaic Idealize.ShloMosaic.TcCoe Idealize.ShloMosaic.ValueIdx Idealize.SL.Sem
open Idealize.ShloMosaic.Pipeline (Dat)

/-! ## One row -/

/-- The shift of a row: the larger of `-∞` and the row's maximum folded from `-∞`. -/
def rowShift (z : Fin 16 → EReal) : EReal :=
  max (Ideal.ofBits .f32 0xFF800000#32) ((Finset.univ : Finset (Fin 16)).fold max (Ideal.ofBits .f32 0xFF800000#32) z)

/-- The log-softmax of one row of sixteen, at column `q`. -/
def lsmRow (z : Fin 16 → EReal) (q : Fin 16) : EReal :=
  (z q - rowShift z) - Ideal.log (∑ k : Fin 16, Ideal.exp (z k - rowShift z))

/-! ## The body's vector operations after the bias is added, over any `[5000, 16]` vector -/

/-- Each row's shift, as the body computes it. -/
def shiftV (Z : FVec Ideal S5000x16 .f32) : FVec Ideal S5000 .f32 :=
  maximumf (broadcast S5000 (Scalar.ofBits (F := Ideal) .f32 0xFF800000#32))
    (multiReduction .maximumf [1] S5000 Z 0xFF800000#32 reduces_S5000x16_S5000 (.inl rfl) rfl)

/-- The rows with their shifts subtracted. -/
def shifted (Z : FVec Ideal S5000x16 .f32) : FVec Ideal S5000x16 .f32 :=
  subf Z (broadcastTo S5000x16 (shapeCast S5000x1 (shiftV Z) shapeCasts_S5000_S5000x1) broadcasts_S5000x1_S5000x16)

/-- Each row's log of the sum of exponentials, as a column. -/
def logSum (Z : FVec Ideal S5000x16 .f32) : FVec Ideal S5000x1 .f32 :=
  log (shapeCast S5000x1 (multiReduction .add [1] S5000 (exp (shifted Z)) 0x00000000#32 reduces_S5000x16_S5000 (.inl rfl) rfl)
    shapeCasts_S5000_S5000x1)

/-- The body from the biased rows on. -/
def normalise (Z : FVec Ideal S5000x16 .f32) : FVec Ideal S5000x16 .f32 :=
  subf (shifted Z) (broadcastTo S5000x16 (logSum Z) broadcasts_S5000x1_S5000x16)

theorem shiftV_at (Z : FVec Ideal S5000x16 .f32) (p : Fin 5000) : shiftV Z (ix1 p) = rowShift fun k => Z (ix2 p k) := by
  unfold shiftV rowShift
  exact congrArg (max (Ideal.ofBits .f32 0xFF800000#32))
    (Cert.RowFolds.laneMax_apply Z 0xFF800000#32 reduces_S5000x16_S5000 (.inl rfl) rfl p)

theorem shifted_at (Z : FVec Ideal S5000x16 .f32) (p : Fin 5000) (q : Fin 16) :
    shifted Z (ix2 p q) = Z (ix2 p q) - rowShift fun k => Z (ix2 p k) := by
  unfold shifted
  show Z (ix2 p q) - broadcastTo S5000x16 (shapeCast S5000x1 (shiftV Z) shapeCasts_S5000_S5000x1) broadcasts_S5000x1_S5000x16 (ix2 p q) = _
  rw [Cert.Layout.broadcastTo_a1_ab_apply, Cert.Layout.shapeCast_col_apply, shiftV_at]

theorem logSum_at (Z : FVec Ideal S5000x16 .f32) (p : Fin 5000) :
    logSum Z (ix2 p (0 : Fin 1)) = Ideal.log (∑ k : Fin 16, Ideal.exp (Z (ix2 p k) - rowShift fun k => Z (ix2 p k))) := by
  unfold logSum
  show Ideal.log (shapeCast S5000x1 (multiReduction .add [1] S5000 (exp (shifted Z)) 0x00000000#32 reduces_S5000x16_S5000 (.inl rfl) rfl)
    shapeCasts_S5000_S5000x1 (ix2 p (0 : Fin 1))) = _
  rw [Cert.Layout.shapeCast_col_apply]
  refine congrArg Ideal.log ((Cert.RowFolds.laneSum_apply (exp (shifted Z)) 0x00000000#32 reduces_S5000x16_S5000 (.inl rfl) rfl p).trans ?_)
  refine Finset.sum_congr rfl fun k _ => ?_
  show Ideal.exp (shifted Z (ix2 p k)) = _
  rw [shifted_at]

/-- The body from the biased rows on, read at `(p, q)`: the log-softmax of row `p` at column `q`. -/
theorem normalise_at (Z : FVec Ideal S5000x16 .f32) (p : Fin 5000) (q : Fin 16) :
    normalise Z (ix2 p q) = lsmRow (fun k => Z (ix2 p k)) q := by
  unfold normalise lsmRow
  show shifted Z (ix2 p q) - broadcastTo S5000x16 (logSum Z) broadcasts_S5000x1_S5000x16 (ix2 p q) = _
  rw [Cert.Layout.broadcastTo_a1_ab_apply, logSum_at, shifted_at]

/-- The rows of a block with the bias added, as the body computes them. -/
def biased (x0 : Vec Ideal S5000x16 .f32) (x1 : Vec Ideal S1x16 .f32) : FVec Ideal S5000x16 .f32 :=
  addf (shapeCast S5000x16 x0 shapeCasts_S5000x16_S5000x16)
    (broadcastTo S5000x16 (shapeCast S1x16 x1 shapeCasts_S1x16_S1x16) broadcasts_S1x16_S5000x16)

/-- The biased rows, read at `(p, k)`. -/
theorem biased_at (x0 : Vec Ideal S5000x16 .f32) (x1 : Vec Ideal S1x16 .f32) (p : Fin 5000) (k : Fin 16) :
    biased x0 x1 (ix2 p k) = x0 (ix2 p k) + x1 (ix2 (0 : Fin 1) k) := by
  unfold biased
  show (shapeCast S5000x16 x0 shapeCasts_S5000x16_S5000x16) (ix2 p k)
      + broadcastTo S5000x16 (shapeCast S1x16 x1 shapeCasts_S1x16_S1x16) broadcasts_S1x16_S5000x16 (ix2 p k) = _
  rw [shapeCast_self, shapeCast_self, Cert.RowsProduct.broadcastTo_1n_an_apply]

/-- One block's result, read at `(p, q)`: the log-softmax of the block's row `p` plus the bias, at column `q`. -/
theorem pay_at (x0 : Vec Ideal S5000x16 .f32) (x1 : Vec Ideal S1x16 .f32) (p : Fin 5000) (q : Fin 16) :
    k5_pay1 x0 x1 (ix2 p q) = lsmRow (fun k => x0 (ix2 p k) + x1 (ix2 (0 : Fin 1) k)) q := by
  have e : k5_pay1 x0 x1 = normalise (biased x0 x1) := rfl
  rw [e, normalise_at]
  exact congrArg (lsmRow · q) (funext fun k => biased_at x0 x1 p k)

/-! ## The whole array -/

variable (V : (c : Dev nD) → (b : Ref sig .tc) → Buf (Elt Ideal) ((c : Thread nD τ).loc b))

theorem hz : (![0, 0] : Fin 2 → Nat) = fun _ => 0 := funext fun a => by fin_cases a <;> rfl

/-- Entry `k` of the row of the result index `i`. -/
abbrev rowAt (i : S50000x16.Idx) (k : Fin 16) : S50000x16.Idx := fun a => match a with
  | ⟨0, _⟩ => ⟨(i 0).val, (i 0).isLt⟩
  | ⟨1, _⟩ => ⟨k.val, k.isLt⟩
/-- The bias entry of column `k`. -/
abbrev biasAt (k : Fin 16) : S1x16.Idx := fun a => match a with
  | ⟨0, _⟩ => ⟨0, Nat.one_pos⟩
  | ⟨1, _⟩ => ⟨k.val, k.isLt⟩

/-- The whole step: every row plus the bias, normalised by itself. -/
def biasLogSoftmax (A : (⟨S50000x16, .f32⟩ : BufTy).Contents (Elt Ideal)) (B : (⟨S1x16, .f32⟩ : BufTy).Contents (Elt Ideal)) :
    (⟨S50000x16, .f32⟩ : BufTy).Contents (Elt Ideal) :=
  fun i => lsmRow (fun k => A (rowAt i k) + B (biasAt k)) ⟨(i 1).val, (i 1).isLt⟩

/-- Where the three windows' blocks sit at point `t`. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every block row is some point's. -/
theorem idx_onto : ∀ (q0 : Fin 10), ∃ t : Fin cfg5.N, win5_2.index t = ![q0.val, 0] :=
  (by decide +kernel : ∀ (q0 : Fin 10), ∃ t : Fin grid5.N, win5_2.index t = ![q0.val, 0])

/-- What point `t` writes back is block `t` of the whole step applied to the arrays the region finds. -/
theorem flushed_eq (c : Dev nD) (t : Fin cfg5.N) :
    (dat5 V c).flushed 2 t = ((cfg5.win 2).blk t).view.read (Elt Ideal) (biasLogSoftmax (V c main_v45) (V c main_v46)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k5_pay1 (iblk5 V c 0 t) (iblk5 V c 1 t) (ix2 p q)
    = biasLogSoftmax (V c main_v45) (V c main_v46) (((cfg5.win 2).blk t).view.emb (ix2 p q))
  refine (pay_at (iblk5 V c 0 t) (iblk5 V c 1 t) p q).trans ?_
  unfold biasLogSoftmax
  have hq : q = (⟨((((cfg5.win 2).blk t).view.emb (ix2 p q)) 1).val, ((((cfg5.win 2).blk t).view.emb (ix2 p q)) 1).isLt⟩ : Fin 16) := by
    apply Fin.ext
    show q.val = win5_2.index t (1 : Fin 2) * 16 + 1 * q.val
    omega
  refine congrArg₂ lsmRow (funext fun k => ?_) hq
  have hl : iblk5 V c 0 t (ix2 p k) = V c main_v45 (rowAt (((cfg5.win 2).blk t).view.emb (ix2 p q)) k) := by
    show V c main_v45 (((cfg5.win 0).blk t).view.emb (ix2 p k)) = _
    refine congrArg (V c main_v45) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 16 + 1 * k.val = k.val; omega
  have hr : iblk5 V c 1 t (ix2 (0 : Fin 1) k) = V c main_v46 (biasAt k) := by
    show V c main_v46 (((cfg5.win 1).blk t).view.emb (ix2 (0 : Fin 1) k)) = _
    refine congrArg (V c main_v46) (funext fun a => Fin.ext ?_)
    match a with
    | ⟨0, _⟩ => show win5_1.index t (0 : Fin 2) * 1 + 1 * 0 = 0; omega
    | ⟨1, _⟩ => show win5_1.index t (1 : Fin 2) * 16 + 1 * k.val = k.val; omega
  rw [hl, hr]

/-- An index of the array is in point `t`'s block iff each coordinate is in the block's range on its axis. -/
theorem mem_blk (t : Fin cfg5.N) (i : S50000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v47).slice (win5_2.rect t)).set ↔ _
  rw [View.set_slice_whole, Rect.mem_set_unit]
  exact Iff.rfl

/-- The ten row blocks cover the array: row `r` is in the block of point `r / 5000`. -/
theorem cover (i : S50000x16.Idx) : ∃ t : Fin cfg5.N, (cfg5.win 2).flush t = true ∧ i ∈ ((cfg5.win 2).blk t).view.set := by
  have hi0 : (i 0).val < 50000 := (i 0).isLt
  have hi1 : (i 1).val < 16 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 16 ≤ (i 1).val ∧ (i 1).val < win5_2.index t (1 : Fin 2) * 16 + 16; omega

/-- The array the region leaves is the whole step applied to the two arrays it found. -/
theorem final (c : Dev nD) : (dat5 V c).arrAt 2 cfg5.N = biasLogSoftmax (V c main_v45) (V c main_v46) :=
  (dat5 V c).arrAt_eq_of_cover 2 (biasLogSoftmax (V c main_v45) (V c main_v46)) (fun t _ => flushed_eq V c t) cover

end Cert.KernelIdeal.Softmax5

end
-- ==== Proof.ProductBias6.lean ====
/-
  The dense product with bias of region 6, from blocks to the whole array.

  The grid has ten points; point `t` multiplies rows `5000·t … 5000·t + 4999` of the left operand — the whole width
  `64` — with the whole right operand, `[64, 64]`, into a zero accumulator, adds the one-row bias `[1, 64]` to every row,
  and writes the `[5000, 64]` result back at the same rows.  At the ideal values entry `(r, q)` of the array the region
  leaves is the sum over `k` of `left (r, k) · right (k, q)`, plus `bias (0, q)`; the ten row blocks cover the `50000` rows.
-/
import proofs.«156452_j86887188398704_1_alg».proof.Proof.Gen.KernelIdeal.Frame
import proofs.«156452_j86887188398704_1_alg».proof.Proof.LibPlainProduct
import proofs.«156452_j86887188398704_1_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.ProductBias6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, k)` of the left operand, for the row of the result index `i`. -/
abbrev lrow (i : S50000x64.Idx) (k : Fin 64) : S50000x64.Idx := fun a => match a with
  | ⟨0, _⟩ => ⟨(i 0).val, (i 0).isLt⟩
  | ⟨1, _⟩ => ⟨k.val, k.isLt⟩
/-- Entry `(k, q)` of the right operand, for the column of the result index `i`. -/
abbrev rcol (i : S50000x64.Idx) (k : Fin 64) : S64x64.Idx := fun a => match a with
  | ⟨0, _⟩ => ⟨k.val, k.isLt⟩
  | ⟨1, _⟩ => ⟨(i 1).val, (i 1).isLt⟩
/-- The bias entry that meets the result index `i`: row `0`, the column of `i`. -/
abbrev brow (i : S50000x64.Idx) : S1x64.Idx := fun a => match a with
  | ⟨0, _⟩ => ⟨0, Nat.one_pos⟩
  | ⟨1, _⟩ => ⟨(i 1).val, (i 1).isLt⟩

/-- The whole product plus the bias: entry `i` is the sum over the shared coordinate, plus its column's bias. -/
def prodBias (A : (⟨S50000x64, .f32⟩ : BufTy).Contents (Elt Ideal)) (B : (⟨S64x64, .f32⟩ : BufTy).Contents (Elt Ideal))
    (C : (⟨S1x64, .f32⟩ : BufTy).Contents (Elt Ideal)) : (⟨S50000x64, .f32⟩ : BufTy).Contents (Elt Ideal) :=
  fun i => (∑ k : Fin 64, A (lrow i k) * B (rcol i k)) + C (brow i)

/-- One block's result, read at `(p, q)`. -/
theorem pay_at (x0 : Vec Ideal S5000x64 .f32) (x1 : Vec Ideal S64x64 .f32) (x2 : Vec Ideal S1x64 .f32) (p : Fin 5000) (q : Fin 64) :
    k6_pay1 x0 x1 x2 (ix2 p q) = (∑ k : Fin 64, x0 (ix2 p k) * x1 (ix2 k q)) + x2 (ix2 (0 : Fin 1) q) := by
  unfold k6_pay1
  show FloatOps.matmul (F := Ideal) dot_S5000x64_S64x64_S5000x64_1_0_0_1_n_n none
        (truncf .bf16 (shapeCast S5000x64 x0 shapeCasts_S5000x64_S5000x64 : FVec Ideal S5000x64 .f32) bitsLt_bf16_f32)
      (truncf .bf16 (x1 : FVec Ideal S64x64 .f32) bitsLt_bf16_f32)
        (constant S5000x64 .f32 0x00000000#32) (ix2 p q)
      + broadcastTo S5000x64 (shapeCast S1x64 x2 shapeCasts_S1x64_S1x64) broadcasts_S1x64_S5000x64 (ix2 p q) = _
  rw [shapeCast_self, shapeCast_self, Cert.RowsProduct.broadcastTo_1n_an_apply]
  exact congrArg (· + x2 (ix2 (0 : Fin 1) q))
    (Cert.PlainProduct.matmul_nn_apply (dot_S5000x64_S64x64_S5000x64_1_0_0_1_n_n).wf none _ _ p q)

/-- Where the four windows' blocks sit at point `t`: the left operand's and the result's at the same block row, the right
    operand and the bias whole, and the block row below ten. -/
theorem idx_facts : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (1 : Fin 2) = 0
    ∧ win6_3.index t (0 : Fin 2) ≤ 9 :=
  (by decide +kernel : ∀ t : Fin grid6.N, _)

/-- Every block row is some point's. -/
theorem idx_onto : ∀ (q0 : Fin 10), ∃ t : Fin cfg6.N, win6_3.index t = ![q0.val, 0] :=
  (by decide +kernel : ∀ (q0 : Fin 10), ∃ t : Fin grid6.N, win6_3.index t = ![q0.val, 0])

/-- What point `t` writes back is block `t` of the whole product plus bias of the arrays the region finds. -/
theorem flushed_eq (c : Dev nD) (t : Fin cfg6.N) :
    (dat6 V c).flushed 3 t = ((cfg6.win 3).blk t).view.read (Elt Ideal) (prodBias (V c main_v31) (V c main_arg8) (V c main_v48)) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show k6_pay1 (iblk6 V c 0 t) (iblk6 V c 1 t) (iblk6 V c 2 t) (ix2 p q)
    = prodBias (V c main_v31) (V c main_arg8) (V c main_v48) (((cfg6.win 3).blk t).view.emb (ix2 p q))
  refine (pay_at (iblk6 V c 0 t) (iblk6 V c 1 t) (iblk6 V c 2 t) p q).trans ?_
  unfold prodBias
  have hb : iblk6 V c 2 t (ix2 (0 : Fin 1) q) = V c main_v48 (brow (((cfg6.win 3).blk t).view.emb (ix2 p q))) := by
    show V c main_v48 (((cfg6.win 2).blk t).view.emb (ix2 (0 : Fin 1) q)) = _
    refine congrArg (V c main_v48) (funext fun a => Fin.ext ?_)
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega
  rw [hb]
  refine congrArg (· + V c main_v48 (brow (((cfg6.win 3).blk t).view.emb (ix2 p q)))) (Finset.sum_congr rfl fun k _ => ?_)
  have hl : iblk6 V c 0 t (ix2 p k) = V c main_v31 (lrow (((cfg6.win 3).blk t).view.emb (ix2 p q)) k) := by
    show V c main_v31 (((cfg6.win 0).blk t).view.emb (ix2 p k)) = _
    refine congrArg (V c main_v31) (funext fun a => Fin.ext ?_)
    match a with
    | ⟨0, _⟩ => show win6_0.index t (0 : Fin 2) * 5000 + 1 * p.val = win6_3.index t (0 : Fin 2) * 5000 + 1 * p.val; omega
    | ⟨1, _⟩ => show win6_0.index t (1 : Fin 2) * 64 + 1 * k.val = k.val; omega
  have hr : iblk6 V c 1 t (ix2 k q) = V c main_arg8 (rcol (((cfg6.win 3).blk t).view.emb (ix2 p q)) k) := by
    show V c main_arg8 (((cfg6.win 1).blk t).view.emb (ix2 k q)) = _
    refine congrArg (V c main_arg8) (funext fun a => Fin.ext ?_)
    match a with
    | ⟨0, _⟩ => show win6_1.index t (0 : Fin 2) * 64 + 1 * k.val = k.val; omega
    | ⟨1, _⟩ => show win6_1.index t (1 : Fin 2) * 64 + 1 * q.val = win6_3.index t (1 : Fin 2) * 64 + 1 * q.val; omega
  rw [hl, hr]

/-- An index of the array is in point `t`'s block iff each coordinate is in the block's range on its axis. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v49).slice (win6_3.rect t)).set ↔ _
  rw [View.set_slice_whole, Rect.mem_set_unit]
  exact Iff.rfl

/-- The ten row blocks cover the array: row `r` is in the block of point `r / 5000`. -/
theorem cover (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, ht⟩ := idx_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The array the region leaves is the whole product plus bias of the three arrays it found. -/
theorem final (c : Dev nD) : (dat6 V c).arrAt 3 cfg6.N = prodBias (V c main_v31) (V c main_arg8) (V c main_v48) :=
  (dat6 V c).arrAt_eq_of_cover 3 (prodBias (V c main_v31) (V c main_arg8) (V c main_v48)) (fun t _ => flushed_eq V c t) cover

end Cert.KernelIdeal.ProductBias6

end
-- ==== Proof.KernelValue.lean ====
/-
  What the idealized kernel's two result buffers hold, as functions of the argument arrays.

  The program's buffers are followed through its eleven segments.  A region leaves its output array at the layer function
  of its input arrays (the seven region modules) and every other buffer alone; a host stretch leaves the aggregated array
  and the re-laid bias (the host-stretch module) and every buffer it does not write alone.  No segment writes an argument
  array.  Composed: the hidden layers are `relu (agg (h · W) + b)`, the first result the log-softmax of the third layer's
  rows, the second the product of the second hidden layer with the last weights plus the last bias.
-/
import proofs.«156452_j86887188398704_1_alg».proof.Proof.Gen.KernelIdeal.Frame
import proofs.«156452_j86887188398704_1_alg».proof.Proof.KernelHost
import proofs.«156452_j86887188398704_1_alg».proof.Proof.Product0
import proofs.«156452_j86887188398704_1_alg».proof.Proof.Rectify1
import proofs.«156452_j86887188398704_1_alg».proof.Proof.Product2
import proofs.«156452_j86887188398704_1_alg».proof.Proof.Rectify3
import proofs.«156452_j86887188398704_1_alg».proof.Proof.Product4
import proofs.«156452_j86887188398704_1_alg».proof.Proof.Softmax5
import proofs.«156452_j86887188398704_1_alg».proof.Proof.ProductBias6

set_option maxRecDepth 16384

noncomputable section

namespace Cert.KernelIdeal.Value

open Cert.KernelIdeal Cert.KernelIdeal.Gen Cert.KernelIdeal.HostSteps
open Idealize.ShloMosaic Idealize.ShloMosaic.TcCoe Idealize.SL.Sem Idealize.ShloMosaic.StableHlo

/-! ## The layers, as functions of the argument arrays -/

section Layers

variable (x0 : (⟨S50000x500, .f32⟩ : BufTy).Contents (Elt Ideal)) (x1 : (⟨S800000, .f32⟩ : BufTy).Contents (Elt Ideal))
  (x2 : (⟨S500x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))
  (x8 : (⟨S64x64, .f32⟩ : BufTy).Contents (Elt Ideal)) (x9 : (⟨S64, .f32⟩ : BufTy).Contents (Elt Ideal))
  (x10 x11 : (⟨S800000, .i32⟩ : BufTy).Contents (Elt Ideal))

/-- The first hidden layer. -/
def hidden1 : (⟨S50000x128, .f32⟩ : BufTy).Contents (Elt Ideal) :=
  Rectify1.biasRelu (agg128 (Product0.prod x0 x2) x1 x10 x11) (shapeCast S1x128 x3 shapeCasts_S128_S1x128)

/-- The second hidden layer. -/
def hidden2 : (⟨S50000x64, .f32⟩ : BufTy).Contents (Elt Ideal) :=
  Rectify3.biasRelu (agg64 (Product2.prod (hidden1 x0 x1 x2 x3 x10 x11) x4) x1 x10 x11) (shapeCast S1x64 x5 shapeCasts_S64_S1x64)

/-- The first result: the rows of the third layer, log-softmaxed. -/
def out1 : (⟨S50000x16, .f32⟩ : BufTy).Contents (Elt Ideal) :=
  Softmax5.biasLogSoftmax (agg16 (Product4.prod (hidden2 x0 x1 x2 x3 x4 x5 x10 x11) x6) x1 x10 x11) (shapeCast S1x16 x7 shapeCasts_S16_S1x16)

/-- The second result: the second hidden layer through the last dense map. -/
def out2 : (⟨S50000x64, .f32⟩ : BufTy).Contents (Elt Ideal) :=
  ProductBias6.prodBias (hidden2 x0 x1 x2 x3 x4 x5 x10 x11) x8 (shapeCast S1x64 x9 shapeCasts_S64_S1x64)

end Layers

/-! ## The buffers at every segment boundary -/

variable (m : (ℓ : Loc nD τ sig) → Buf (Elt Ideal) ℓ) (ρ : Dev nD → PrngReg) (c : Dev nD)

/-- The argument arrays are as launched in the contents `W`. -/
structure Kept (W : Valuation τ sig (Elt Ideal)) : Prop where
  k0 : W (Proc.devRef .tc main_arg0) = m ((c : Thread nD τ).loc main_arg0)
  k1 : W (Proc.devRef .tc main_arg1) = m ((c : Thread nD τ).loc main_arg1)
  k2 : W (Proc.devRef .tc main_arg2) = m ((c : Thread nD τ).loc main_arg2)
  k3 : W (Proc.devRef .tc main_arg3) = m ((c : Thread nD τ).loc main_arg3)
  k4 : W (Proc.devRef .tc main_arg4) = m ((c : Thread nD τ).loc main_arg4)
  k5 : W (Proc.devRef .tc main_arg5) = m ((c : Thread nD τ).loc main_arg5)
  k6 : W (Proc.devRef .tc main_arg6) = m ((c : Thread nD τ).loc main_arg6)
  k7 : W (Proc.devRef .tc main_arg7) = m ((c : Thread nD τ).loc main_arg7)
  k8 : W (Proc.devRef .tc main_arg8) = m ((c : Thread nD τ).loc main_arg8)
  k9 : W (Proc.devRef .tc main_arg9) = m ((c : Thread nD τ).loc main_arg9)
  k10 : W (Proc.devRef .tc main_arg10) = m ((c : Thread nD τ).loc main_arg10)
  k11 : W (Proc.devRef .tc main_arg11) = m ((c : Thread nD τ).loc main_arg11)

/-- A buffer no operation of a host stretch writes keeps its contents over the stretch. -/
macro "host_keeps" : tactic => `(tactic| (
  refine StableHlo.after_of_forall_not_mem _ _ (List.forall_iff_forall_mem.mp ?_)
  simp only [hostOps1, hostOps3, hostOps5, hostOps6, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem kept0 : Kept m c (W0 m ρ c) := ⟨rfl, rfl, rfl, rfl, rfl, rfl, rfl, rfl, rfl, rfl, rfl, rfl⟩

theorem kept1 (h : Kept m c (W0 m ρ c)) : Kept m c (W1 m ρ c) where
  k0 := ((W1_arr m ρ c 0).trans (((dat0 (V0 m ρ) c).arrAt_in 0 rfl _).trans (A_eq0 (V0 m ρ) c 0))).trans h.k0
  k1 := (W1_of_ne m ρ c main_arg1 (by decide)).trans h.k1
  k2 := ((W1_arr m ρ c 1).trans (((dat0 (V0 m ρ) c).arrAt_in 1 rfl _).trans (A_eq0 (V0 m ρ) c 1))).trans h.k2
  k3 := (W1_of_ne m ρ c main_arg3 (by decide)).trans h.k3
  k4 := (W1_of_ne m ρ c main_arg4 (by decide)).trans h.k4
  k5 := (W1_of_ne m ρ c main_arg5 (by decide)).trans h.k5
  k6 := (W1_of_ne m ρ c main_arg6 (by decide)).trans h.k6
  k7 := (W1_of_ne m ρ c main_arg7 (by decide)).trans h.k7
  k8 := (W1_of_ne m ρ c main_arg8 (by decide)).trans h.k8
  k9 := (W1_of_ne m ρ c main_arg9 (by decide)).trans h.k9
  k10 := (W1_of_ne m ρ c main_arg10 (by decide)).trans h.k10
  k11 := (W1_of_ne m ρ c main_arg11 (by decide)).trans h.k11

theorem kept2 (h : Kept m c (W1 m ρ c)) : Kept m c (W2 m ρ c) where
  k0 := (by host_keeps : W2 m ρ c (Proc.devRef .tc main_arg0) = W1 m ρ c (Proc.devRef .tc main_arg0)).trans h.k0
  k1 := (by host_keeps : W2 m ρ c (Proc.devRef .tc main_arg1) = W1 m ρ c (Proc.devRef .tc main_arg1)).trans h.k1
  k2 := (by host_keeps : W2 m ρ c (Proc.devRef .tc main_arg2) = W1 m ρ c (Proc.devRef .tc main_arg2)).trans h.k2
  k3 := (by host_keeps : W2 m ρ c (Proc.devRef .tc main_arg3) = W1 m ρ c (Proc.devRef .tc main_arg3)).trans h.k3
  k4 := (by host_keeps : W2 m ρ c (Proc.devRef .tc main_arg4) = W1 m ρ c (Proc.devRef .tc main_arg4)).trans h.k4
  k5 := (by host_keeps : W2 m ρ c (Proc.devRef .tc main_arg5) = W1 m ρ c (Proc.devRef .tc main_arg5)).trans h.k5
  k6 := (by host_keeps : W2 m ρ c (Proc.devRef .tc main_arg6) = W1 m ρ c (Proc.devRef .tc main_arg6)).trans h.k6
  k7 := (by host_keeps : W2 m ρ c (Proc.devRef .tc main_arg7) = W1 m ρ c (Proc.devRef .tc main_arg7)).trans h.k7
  k8 := (by host_keeps : W2 m ρ c (Proc.devRef .tc main_arg8) = W1 m ρ c (Proc.devRef .tc main_arg8)).trans h.k8
  k9 := (by host_keeps : W2 m ρ c (Proc.devRef .tc main_arg9) = W1 m ρ c (Proc.devRef .tc main_arg9)).trans h.k9
  k10 := (by host_keeps : W2 m ρ c (Proc.devRef .tc main_arg10) = W1 m ρ c (Proc.devRef .tc main_arg10)).trans h.k10
  k11 := (by host_keeps : W2 m ρ c (Proc.devRef .tc main_arg11) = W1 m ρ c (Proc.devRef .tc main_arg11)).trans h.k11

theorem kept3 (h : Kept m c (W2 m ρ c)) : Kept m c (W3 m ρ c) where
  k0 := (W3_of_ne m ρ c main_arg0 (by decide)).trans h.k0
  k1 := (W3_of_ne m ρ c main_arg1 (by decide)).trans h.k1
  k2 := (W3_of_ne m ρ c main_arg2 (by decide)).trans h.k2
  k3 := (W3_of_ne m ρ c main_arg3 (by decide)).trans h.k3
  k4 := (W3_of_ne m ρ c main_arg4 (by decide)).trans h.k4
  k5 := (W3_of_ne m ρ c main_arg5 (by decide)).trans h.k5
  k6 := (W3_of_ne m ρ c main_arg6 (by decide)).trans h.k6
  k7 := (W3_of_ne m ρ c main_arg7 (by decide)).trans h.k7
  k8 := (W3_of_ne m ρ c main_arg8 (by decide)).trans h.k8
  k9 := (W3_of_ne m ρ c main_arg9 (by decide)).trans h.k9
  k10 := (W3_of_ne m ρ c main_arg10 (by decide)).trans h.k10
  k11 := (W3_of_ne m ρ c main_arg11 (by decide)).trans h.k11

theorem kept4 (h : Kept m c (W3 m ρ c)) : Kept m c (W4 m ρ c) where
  k0 := (W4_of_ne m ρ c main_arg0 (by decide)).trans h.k0
  k1 := (W4_of_ne m ρ c main_arg1 (by decide)).trans h.k1
  k2 := (W4_of_ne m ρ c main_arg2 (by decide)).trans h.k2
  k3 := (W4_of_ne m ρ c main_arg3 (by decide)).trans h.k3
  k4 := ((W4_arr m ρ c 1).trans (((dat2 (V3 m ρ) c).arrAt_in 1 rfl _).trans (A_eq2 (V3 m ρ) c 1))).trans h.k4
  k5 := (W4_of_ne m ρ c main_arg5 (by decide)).trans h.k5
  k6 := (W4_of_ne m ρ c main_arg6 (by decide)).trans h.k6
  k7 := (W4_of_ne m ρ c main_arg7 (by decide)).trans h.k7
  k8 := (W4_of_ne m ρ c main_arg8 (by decide)).trans h.k8
  k9 := (W4_of_ne m ρ c main_arg9 (by decide)).trans h.k9
  k10 := (W4_of_ne m ρ c main_arg10 (by decide)).trans h.k10
  k11 := (W4_of_ne m ρ c main_arg11 (by decide)).trans h.k11

theorem kept5 (h : Kept m c (W4 m ρ c)) : Kept m c (W5 m ρ c) where
  k0 := (by host_keeps : W5 m ρ c (Proc.devRef .tc main_arg0) = W4 m ρ c (Proc.devRef .tc main_arg0)).trans h.k0
  k1 := (by host_keeps : W5 m ρ c (Proc.devRef .tc main_arg1) = W4 m ρ c (Proc.devRef .tc main_arg1)).trans h.k1
  k2 := (by host_keeps : W5 m ρ c (Proc.devRef .tc main_arg2) = W4 m ρ c (Proc.devRef .tc main_arg2)).trans h.k2
  k3 := (by host_keeps : W5 m ρ c (Proc.devRef .tc main_arg3) = W4 m ρ c (Proc.devRef .tc main_arg3)).trans h.k3
  k4 := (by host_keeps : W5 m ρ c (Proc.devRef .tc main_arg4) = W4 m ρ c (Proc.devRef .tc main_arg4)).trans h.k4
  k5 := (by host_keeps : W5 m ρ c (Proc.devRef .tc main_arg5) = W4 m ρ c (Proc.devRef .tc main_arg5)).trans h.k5
  k6 := (by host_keeps : W5 m ρ c (Proc.devRef .tc main_arg6) = W4 m ρ c (Proc.devRef .tc main_arg6)).trans h.k6
  k7 := (by host_keeps : W5 m ρ c (Proc.devRef .tc main_arg7) = W4 m ρ c (Proc.devRef .tc main_arg7)).trans h.k7
  k8 := (by host_keeps : W5 m ρ c (Proc.devRef .tc main_arg8) = W4 m ρ c (Proc.devRef .tc main_arg8)).trans h.k8
  k9 := (by host_keeps : W5 m ρ c (Proc.devRef .tc main_arg9) = W4 m ρ c (Proc.devRef .tc main_arg9)).trans h.k9
  k10 := (by host_keeps : W5 m ρ c (Proc.devRef .tc main_arg10) = W4 m ρ c (Proc.devRef .tc main_arg10)).trans h.k10
  k11 := (by host_keeps : W5 m ρ c (Proc.devRef .tc main_arg11) = W4 m ρ c (Proc.devRef .tc main_arg11)).trans h.k11

theorem kept6 (h : Kept m c (W5 m ρ c)) : Kept m c (W6 m ρ c) where
  k0 := (W6_of_ne m ρ c main_arg0 (by decide)).trans h.k0
  k1 := (W6_of_ne m ρ c main_arg1 (by decide)).trans h.k1
  k2 := (W6_of_ne m ρ c main_arg2 (by decide)).trans h.k2
  k3 := (W6_of_ne m ρ c main_arg3 (by decide)).trans h.k3
  k4 := (W6_of_ne m ρ c main_arg4 (by decide)).trans h.k4
  k5 := (W6_of_ne m ρ c main_arg5 (by decide)).trans h.k5
  k6 := (W6_of_ne m ρ c main_arg6 (by decide)).trans h.k6
  k7 := (W6_of_ne m ρ c main_arg7 (by decide)).trans h.k7
  k8 := (W6_of_ne m ρ c main_arg8 (by decide)).trans h.k8
  k9 := (W6_of_ne m ρ c main_arg9 (by decide)).trans h.k9
  k10 := (W6_of_ne m ρ c main_arg10 (by decide)).trans h.k10
  k11 := (W6_of_ne m ρ c main_arg11 (by decide)).trans h.k11

theorem kept7 (h : Kept m c (W6 m ρ c)) : Kept m c (W7 m ρ c) where
  k0 := (W7_of_ne m ρ c main_arg0 (by decide)).trans h.k0
  k1 := (W7_of_ne m ρ c main_arg1 (by decide)).trans h.k1
  k2 := (W7_of_ne m ρ c main_arg2 (by decide)).trans h.k2
  k3 := (W7_of_ne m ρ c main_arg3 (by decide)).trans h.k3
  k4 := (W7_of_ne m ρ c main_arg4 (by decide)).trans h.k4
  k5 := (W7_of_ne m ρ c main_arg5 (by decide)).trans h.k5
  k6 := ((W7_arr m ρ c 1).trans (((dat4 (V6 m ρ) c).arrAt_in 1 rfl _).trans (A_eq4 (V6 m ρ) c 1))).trans h.k6
  k7 := (W7_of_ne m ρ c main_arg7 (by decide)).trans h.k7
  k8 := (W7_of_ne m ρ c main_arg8 (by decide)).trans h.k8
  k9 := (W7_of_ne m ρ c main_arg9 (by decide)).trans h.k9
  k10 := (W7_of_ne m ρ c main_arg10 (by decide)).trans h.k10
  k11 := (W7_of_ne m ρ c main_arg11 (by decide)).trans h.k11

theorem kept8 (h : Kept m c (W7 m ρ c)) : Kept m c (W8 m ρ c) where
  k0 := (by host_keeps : W8 m ρ c (Proc.devRef .tc main_arg0) = W7 m ρ c (Proc.devRef .tc main_arg0)).trans h.k0
  k1 := (by host_keeps : W8 m ρ c (Proc.devRef .tc main_arg1) = W7 m ρ c (Proc.devRef .tc main_arg1)).trans h.k1
  k2 := (by host_keeps : W8 m ρ c (Proc.devRef .tc main_arg2) = W7 m ρ c (Proc.devRef .tc main_arg2)).trans h.k2
  k3 := (by host_keeps : W8 m ρ c (Proc.devRef .tc main_arg3) = W7 m ρ c (Proc.devRef .tc main_arg3)).trans h.k3
  k4 := (by host_keeps : W8 m ρ c (Proc.devRef .tc main_arg4) = W7 m ρ c (Proc.devRef .tc main_arg4)).trans h.k4
  k5 := (by host_keeps : W8 m ρ c (Proc.devRef .tc main_arg5) = W7 m ρ c (Proc.devRef .tc main_arg5)).trans h.k5
  k6 := (by host_keeps : W8 m ρ c (Proc.devRef .tc main_arg6) = W7 m ρ c (Proc.devRef .tc main_arg6)).trans h.k6
  k7 := (by host_keeps : W8 m ρ c (Proc.devRef .tc main_arg7) = W7 m ρ c (Proc.devRef .tc main_arg7)).trans h.k7
  k8 := (by host_keeps : W8 m ρ c (Proc.devRef .tc main_arg8) = W7 m ρ c (Proc.devRef .tc main_arg8)).trans h.k8
  k9 := (by host_keeps : W8 m ρ c (Proc.devRef .tc main_arg9) = W7 m ρ c (Proc.devRef .tc main_arg9)).trans h.k9
  k10 := (by host_keeps : W8 m ρ c (Proc.devRef .tc main_arg10) = W7 m ρ c (Proc.devRef .tc main_arg10)).trans h.k10
  k11 := (by host_keeps : W8 m ρ c (Proc.devRef .tc main_arg11) = W7 m ρ c (Proc.devRef .tc main_arg11)).trans h.k11

theorem kept9 (h : Kept m c (W8 m ρ c)) : Kept m c (W9 m ρ c) where
  k0 := (W9_of_ne m ρ c main_arg0 (by decide)).trans h.k0
  k1 := (W9_of_ne m ρ c main_arg1 (by decide)).trans h.k1
  k2 := (W9_of_ne m ρ c main_arg2 (by decide)).trans h.k2
  k3 := (W9_of_ne m ρ c main_arg3 (by decide)).trans h.k3
  k4 := (W9_of_ne m ρ c main_arg4 (by decide)).trans h.k4
  k5 := (W9_of_ne m ρ c main_arg5 (by decide)).trans h.k5
  k6 := (W9_of_ne m ρ c main_arg6 (by decide)).trans h.k6
  k7 := (W9_of_ne m ρ c main_arg7 (by decide)).trans h.k7
  k8 := (W9_of_ne m ρ c main_arg8 (by decide)).trans h.k8
  k9 := (W9_of_ne m ρ c main_arg9 (by decide)).trans h.k9
  k10 := (W9_of_ne m ρ c main_arg10 (by decide)).trans h.k10
  k11 := (W9_of_ne m ρ c main_arg11 (by decide)).trans h.k11

theorem kept10 (h : Kept m c (W9 m ρ c)) : Kept m c (W10 m ρ c) where
  k0 := (by host_keeps : W10 m ρ c (Proc.devRef .tc main_arg0) = W9 m ρ c (Proc.devRef .tc main_arg0)).trans h.k0
  k1 := (by host_keeps : W10 m ρ c (Proc.devRef .tc main_arg1) = W9 m ρ c (Proc.devRef .tc main_arg1)).trans h.k1
  k2 := (by host_keeps : W10 m ρ c (Proc.devRef .tc main_arg2) = W9 m ρ c (Proc.devRef .tc main_arg2)).trans h.k2
  k3 := (by host_keeps : W10 m ρ c (Proc.devRef .tc main_arg3) = W9 m ρ c (Proc.devRef .tc main_arg3)).trans h.k3
  k4 := (by host_keeps : W10 m ρ c (Proc.devRef .tc main_arg4) = W9 m ρ c (Proc.devRef .tc main_arg4)).trans h.k4
  k5 := (by host_keeps : W10 m ρ c (Proc.devRef .tc main_arg5) = W9 m ρ c (Proc.devRef .tc main_arg5)).trans h.k5
  k6 := (by host_keeps : W10 m ρ c (Proc.devRef .tc main_arg6) = W9 m ρ c (Proc.devRef .tc main_arg6)).trans h.k6
  k7 := (by host_keeps : W10 m ρ c (Proc.devRef .tc main_arg7) = W9 m ρ c (Proc.devRef .tc main_arg7)).trans h.k7
  k8 := (by host_keeps : W10 m ρ c (Proc.devRef .tc main_arg8) = W9 m ρ c (Proc.devRef .tc main_arg8)).trans h.k8
  k9 := (by host_keeps : W10 m ρ c (Proc.devRef .tc main_arg9) = W9 m ρ c (Proc.devRef .tc main_arg9)).trans h.k9
  k10 := (by host_keeps : W10 m ρ c (Proc.devRef .tc main_arg10) = W9 m ρ c (Proc.devRef .tc main_arg10)).trans h.k10
  k11 := (by host_keeps : W10 m ρ c (Proc.devRef .tc main_arg11) = W9 m ρ c (Proc.devRef .tc main_arg11)).trans h.k11

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- After region 0: the first support. -/
theorem support1 : W1 m ρ c (Proc.devRef .tc main_v0) = Product0.prod a0 a2 :=
  (W1_arr m ρ c 2).trans (Product0.final (V0 m ρ) c)

/-- After region 1: the first hidden layer. -/
theorem at_hidden1 : W3 m ρ c (Proc.devRef .tc main_v15) = hidden1 a0 a1 a2 a3 a10 a11 := by
  have k := kept1 m ρ c (kept0 m ρ c)
  refine ((W3_arr m ρ c 2).trans (Rectify1.final (V2 m ρ) c)).trans ?_
  show Rectify1.biasRelu (after hostOps1 (W1 m ρ c) (Proc.devRef .tc main_v13)) (after hostOps1 (W1 m ρ c) (Proc.devRef .tc main_v14)) = _
  rw [host1_agg, host1_bias, support1, k.k1, k.k3, k.k10, k.k11]
  rfl

/-- After region 2: the second support. -/
theorem support2 : W4 m ρ c (Proc.devRef .tc main_v16) = Product2.prod (hidden1 a0 a1 a2 a3 a10 a11) a4 := by
  have k := kept3 m ρ c (kept2 m ρ c (kept1 m ρ c (kept0 m ρ c)))
  refine ((W4_arr m ρ c 2).trans (Product2.final (V3 m ρ) c)).trans ?_
  show Product2.prod (W3 m ρ c (Proc.devRef .tc main_v15)) (W3 m ρ c (Proc.devRef .tc main_arg4)) = _
  rw [at_hidden1, k.k4]

/-- After region 3: the second hidden layer. -/
theorem at_hidden2 : W6 m ρ c (Proc.devRef .tc main_v31) = hidden2 a0 a1 a2 a3 a4 a5 a10 a11 := by
  have k := kept4 m ρ c (kept3 m ρ c (kept2 m ρ c (kept1 m ρ c (kept0 m ρ c))))
  refine ((W6_arr m ρ c 2).trans (Rectify3.final (V5 m ρ) c)).trans ?_
  show Rectify3.biasRelu (after hostOps3 (W4 m ρ c) (Proc.devRef .tc main_v29)) (after hostOps3 (W4 m ρ c) (Proc.devRef .tc main_v30)) = _
  rw [host3_agg, host3_bias, support2, k.k1, k.k5, k.k10, k.k11]
  rfl

/-- After region 4: the third support, and the second hidden layer still in its buffer. -/
theorem support3 : W7 m ρ c (Proc.devRef .tc main_v32) = Product4.prod (hidden2 a0 a1 a2 a3 a4 a5 a10 a11) a6 := by
  have k := kept6 m ρ c (kept5 m ρ c (kept4 m ρ c (kept3 m ρ c (kept2 m ρ c (kept1 m ρ c (kept0 m ρ c))))))
  refine ((W7_arr m ρ c 2).trans (Product4.final (V6 m ρ) c)).trans ?_
  show Product4.prod (W6 m ρ c (Proc.devRef .tc main_v31)) (W6 m ρ c (Proc.devRef .tc main_arg6)) = _
  rw [at_hidden2, k.k6]

theorem hidden2_at7 : W7 m ρ c (Proc.devRef .tc main_v31) = hidden2 a0 a1 a2 a3 a4 a5 a10 a11 :=
  ((W7_arr m ρ c 0).trans (((dat4 (V6 m ρ) c).arrAt_in 0 rfl _).trans (A_eq4 (V6 m ρ) c 0))).trans (at_hidden2 m ρ c)

/-- After region 5: the first result. -/
theorem at_out1 : W9 m ρ c (Proc.devRef .tc main_v47) = out1 a0 a1 a2 a3 a4 a5 a6 a7 a10 a11 := by
  have k := kept7 m ρ c (kept6 m ρ c (kept5 m ρ c (kept4 m ρ c (kept3 m ρ c (kept2 m ρ c (kept1 m ρ c (kept0 m ρ c)))))))
  refine ((W9_arr m ρ c 2).trans (Softmax5.final (V8 m ρ) c)).trans ?_
  show Softmax5.biasLogSoftmax (after hostOps5 (W7 m ρ c) (Proc.devRef .tc main_v45)) (after hostOps5 (W7 m ρ c) (Proc.devRef .tc main_v46)) = _
  rw [host5_agg, host5_bias, support3, k.k1, k.k7, k.k10, k.k11]
  rfl

/-- The second hidden layer is still in its buffer when the last region starts. -/
theorem hidden2_at10 : W10 m ρ c (Proc.devRef .tc main_v31) = hidden2 a0 a1 a2 a3 a4 a5 a10 a11 :=
  calc W10 m ρ c (Proc.devRef .tc main_v31)
    _ = W9 m ρ c (Proc.devRef .tc main_v31) := by host_keeps
    _ = W8 m ρ c (Proc.devRef .tc main_v31) := W9_of_ne m ρ c main_v31 (by decide)
    _ = W7 m ρ c (Proc.devRef .tc main_v31) := by host_keeps
    _ = _ := hidden2_at7 m ρ c

/-- The first result: in its buffer at the end. -/
theorem result1 : W11 m ρ c (Proc.devRef .tc main_v47) = out1 a0 a1 a2 a3 a4 a5 a6 a7 a10 a11 :=
  calc W11 m ρ c (Proc.devRef .tc main_v47)
    _ = W10 m ρ c (Proc.devRef .tc main_v47) := W11_of_ne m ρ c main_v47 (by decide)
    _ = W9 m ρ c (Proc.devRef .tc main_v47) := by host_keeps
    _ = _ := at_out1 m ρ c

/-- The second result, after region 6. -/
theorem result2 : W11 m ρ c (Proc.devRef .tc main_v49) = out2 a0 a1 a2 a3 a4 a5 a8 a9 a10 a11 := by
  have k := kept9 m ρ c (kept8 m ρ c (kept7 m ρ c (kept6 m ρ c (kept5 m ρ c (kept4 m ρ c (kept3 m ρ c (kept2 m ρ c (kept1 m ρ c (kept0 m ρ c)))))))))
  have k' := kept10 m ρ c k
  refine ((W11_arr m ρ c 3).trans (ProductBias6.final (V10 m ρ) c)).trans ?_
  show ProductBias6.prodBias (W10 m ρ c (Proc.devRef .tc main_v31)) (W10 m ρ c (Proc.devRef .tc main_arg8))
    (after hostOps6 (W9 m ρ c) (Proc.devRef .tc main_v48)) = _
  rw [host6_bias, hidden2_at10, k'.k8, k.k9]
  rfl

end Cert.KernelIdeal.Value

end
-- ==== Proof.RefSteps.lean ====
/-
  The idealized reference, read segment by segment over any buffer contents.

  The reference is one straight line of 85 host operations.  Cut after each dense product, each aggregation and each
  bias-and-activation step — the log-softmax once more after its shifted rows — it is twelve segments, and each segment
  leaves in its result buffer one function of the buffers it reads: a product, the aggregation along the edges (the same
  chain of operations the kernel's host stretches run), a bias added and rectified, a bias added, the rows shifted by
  their maxima, the log of the rows' sums of exponentials subtracted, a product plus a bias.  No segment writes an
  argument array.  Composed, the two results are functions of the arguments.  Nothing here depends on what a float is.
-/
import proofs.«156452_j86887188398704_1_alg».proof.Proof.RefRunP
import proofs.«156452_j86887188398704_1_alg».proof.Proof.KernelHost

set_option maxRecDepth 16384

noncomputable section

namespace Cert.ReferenceIdeal.Steps

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The segments -/

abbrev s1 : List (HloOp τ sig (Elt F)) :=
  [ binary main_arg0 main_arg2 main_v0 ((fun l r => Host.dotGeneral dot_S50000x500_S500x128_S50000x128_1_0_0_1_n_n none l r) : (⟨S50000x500, .f32⟩ : BufTy).Contents (Elt F) → (⟨S500x128, .f32⟩ : BufTy).Contents (Elt F) → (⟨S50000x128, .f32⟩ : BufTy).Contents (Elt F)) ]

abbrev s2 : List (HloOp τ sig (Elt F)) :=
  [ nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg11 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg11 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg11 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x128 ![0, 1] bcast_S800000x1_S800000x128_0_1 : (⟨S800000x1, .f32⟩ : BufTy).Contents (Elt F) → (⟨S800000x128, .f32⟩ : BufTy).Contents (Elt F)),
    binary main_v7 main_v9 main_v10 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg10 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

abbrev s3 : List (HloOp τ sig (Elt F)) :=
  [ unary main_arg3 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v16) (TRef.of (T := ⟨S50000x128, .f32⟩) main_call0_v0) (TRef.of (T := ⟨S50000x128, .f32⟩) main_v17) maximumf ]

abbrev s4 : List (HloOp τ sig (Elt F)) :=
  [ binary main_v17 main_arg4 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

abbrev s5 : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_arg11 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_arg11 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg11 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg1 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x64 ![0, 1] bcast_S800000x1_S800000x64_0_1 : (⟨S800000x1, .f32⟩ : BufTy).Contents (Elt F) → (⟨S800000x64, .f32⟩ : BufTy).Contents (Elt F)),
    binary main_v25 main_v27 main_v28 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v29 (broadcastInDim S50000x64 ![] bcast_S_S50000x64 : (⟨S_, .f32⟩ : BufTy).Contents (Elt F) → (⟨S50000x64, .f32⟩ : BufTy).Contents (Elt F)),
    unary main_arg10 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev s6 : List (HloOp τ sig (Elt F)) :=
  [ unary main_arg5 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v31 main_v33 main_v34 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v34) (TRef.of (T := ⟨S50000x64, .f32⟩) main_call1_v0) (TRef.of (T := ⟨S50000x64, .f32⟩) main_v35) maximumf ]

abbrev s7 : List (HloOp τ sig (Elt F)) :=
  [ binary main_v35 main_arg6 main_v36 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)) ]

abbrev s8 : List (HloOp τ sig (Elt F)) :=
  [ nullary main_c_4 (constantI S_ 32 0#32),
    unary main_c_4 main_v37 (broadcastInDim S800000 ![] bcast_S_S800000 : (⟨S_, .i32⟩ : BufTy).Contents (Elt F) → (⟨S800000, .i32⟩ : BufTy).Contents (Elt F)),
    binary main_arg11 main_v37 main_v38 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v39 (broadcastInDim S800000 ![] bcast_S_S800000 : (⟨S_, .i32⟩ : BufTy).Contents (Elt F) → (⟨S800000, .i32⟩ : BufTy).Contents (Elt F)),
    binary main_arg11 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg11 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v36 main_v42 main_v43 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_arg1 main_v44 (broadcastInDim S800000x1 ![0] bcast_S800000_S800000x1_0 : (⟨S800000, .f32⟩ : BufTy).Contents (Elt F) → (⟨S800000x1, .f32⟩ : BufTy).Contents (Elt F)),
    unary main_v44 main_v45 (broadcastInDim S800000x16 ![0, 1] bcast_S800000x1_S800000x16_0_1 : (⟨S800000x1, .f32⟩ : BufTy).Contents (Elt F) → (⟨S800000x16, .f32⟩ : BufTy).Contents (Elt F)),
    binary main_v43 main_v45 main_v46 (mulf : (⟨S800000x16, .f32⟩ : BufTy).Contents (Elt F) → (⟨S800000x16, .f32⟩ : BufTy).Contents (Elt F) → (⟨S800000x16, .f32⟩ : BufTy).Contents (Elt F)),
    nullary main_cst_6 (constant S_ .f32 0x00000000#32),
    unary main_cst_6 main_v47 (broadcastInDim S50000x16 ![] bcast_S_S50000x16 : (⟨S_, .f32⟩ : BufTy).Contents (Elt F) → (⟨S50000x16, .f32⟩ : BufTy).Contents (Elt F)),
    unary main_arg10 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)) ]

abbrev s9 : List (HloOp τ sig (Elt F)) :=
  [ unary main_arg7 main_v50 (broadcastInDim S1x16 ![1] bcast_S16_S1x16_1 : (⟨S16, .f32⟩ : BufTy).Contents (Elt F) → (⟨S1x16, .f32⟩ : BufTy).Contents (Elt F)),
    unary main_v50 main_v51 (broadcastInDim S50000x16 ![0, 1] bcast_S1x16_S50000x16_0_1 : (⟨S1x16, .f32⟩ : BufTy).Contents (Elt F) → (⟨S50000x16, .f32⟩ : BufTy).Contents (Elt F)),
    binary main_v49 main_v51 main_v52 (addf : (⟨S50000x16, .f32⟩ : BufTy).Contents (Elt F) → (⟨S50000x16, .f32⟩ : BufTy).Contents (Elt F) → (⟨S50000x16, .f32⟩ : BufTy).Contents (Elt F)) ]

abbrev s10 : List (HloOp τ sig (Elt F)) :=
  [ TRef.nullary (TRef.of (T := ⟨S_, .f32⟩) main_call2_cst) (constant S_ .f32 0xFF800000#32),
    TRef.binary (TRef.of (T := ⟨S50000x16, .f32⟩) main_v52) (TRef.of (T := ⟨S_, .f32⟩) main_call2_cst) (TRef.of (T := ⟨S50000, .f32⟩) main_call2_v0) (fun x v => Host.reduce FloatOps.maximumf x v reducesTo_S50000x16_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x16, .f32⟩) main_call2_v4) (broadcastInDim S50000x16 ![0, 1] bcast_S50000x1_S50000x16_0_1),
    TRef.binary (TRef.of (T := ⟨S50000x16, .f32⟩) main_v52) (TRef.of (T := ⟨S50000x16, .f32⟩) main_call2_v4) (TRef.of (T := ⟨S50000x16, .f32⟩) main_call2_v5) subf ]

abbrev s11 : List (HloOp τ sig (Elt F)) :=
  [ TRef.unary (TRef.of (T := ⟨S50000x16, .f32⟩) main_call2_v5) (TRef.of (T := ⟨S50000x16, .f32⟩) main_call2_v6) Host.exp,
    TRef.nullary (TRef.of (T := ⟨S_, .f32⟩) main_call2_cst_1) (constant S_ .f32 0x00000000#32),
    TRef.binary (TRef.of (T := ⟨S50000x16, .f32⟩) main_call2_v6) (TRef.of (T := ⟨S_, .f32⟩) main_call2_cst_1) (TRef.of (T := ⟨S50000, .f32⟩) main_call2_v7) (fun x v => Host.reduceAdd x v reducesTo_S50000x16_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x16, .f32⟩) main_call2_v10) (broadcastInDim S50000x16 ![0, 1] bcast_S50000x1_S50000x16_0_1),
    TRef.binary (TRef.of (T := ⟨S50000x16, .f32⟩) main_call2_v5) (TRef.of (T := ⟨S50000x16, .f32⟩) main_call2_v10) (TRef.of (T := ⟨S50000x16, .f32⟩) main_v53) subf ]

abbrev s12 : List (HloOp τ sig (Elt F)) :=
  [ binary main_v35 main_arg8 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v54 main_v56 main_v57 (addf : (⟨S50000x64, .f32⟩ : BufTy).Contents (Elt F) → (⟨S50000x64, .f32⟩ : BufTy).Contents (Elt F) → (⟨S50000x64, .f32⟩ : BufTy).Contents (Elt F)) ]

set_option maxRecDepth 65536 in
/-- The program's operations are the twelve segments in order. -/
theorem ops_split : (ops : List (HloOp τ sig (Elt F))) = s1 ++ s2 ++ s3 ++ s4 ++ s5 ++ s6 ++ s7 ++ s8 ++ s9 ++ s10 ++ s11 ++ s12 := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (W : Valuation τ sig (Elt F)) :
    after ops W = after s12 (after s11 (after s10 (after s9 (after s8 (after s7 (after s6 (after s5 (after s4 (after s3 (after s2 (after s1 W))))))))))) := by
  rw [ops_split]
  simp only [after_append]

/-! ## The layer functions the segments compute -/

/-- A bias added to every row of a `[50000, 128]` array and the sum rectified, as the host spells it. -/
def biasRelu128 (A : (⟨S50000x128, .f32⟩ : BufTy).Contents (Elt F)) (b : (⟨S128, .f32⟩ : BufTy).Contents (Elt F)) : (⟨S50000x128, .f32⟩ : BufTy).Contents (Elt F) :=
  maximumf (addf A (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The same at width 64. -/
def biasRelu64 (A : (⟨S50000x64, .f32⟩ : BufTy).Contents (Elt F)) (b : (⟨S64, .f32⟩ : BufTy).Contents (Elt F)) : (⟨S50000x64, .f32⟩ : BufTy).Contents (Elt F) :=
  maximumf (addf A (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- A bias added to every row of a `[50000, 16]` array. -/
def biasAdd16 (A : (⟨S50000x16, .f32⟩ : BufTy).Contents (Elt F)) (b : (⟨S16, .f32⟩ : BufTy).Contents (Elt F)) : (⟨S50000x16, .f32⟩ : BufTy).Contents (Elt F) :=
  addf A (broadcastInDim S50000x16 ![0, 1] bcast_S1x16_S50000x16_0_1 (broadcastInDim S1x16 ![1] bcast_S16_S1x16_1 b))

/-- The rows of a `[50000, 16]` array with the larger of `-∞` and their maximum subtracted, as the host spells it. -/
def shiftedRows (Z : (⟨S50000x16, .f32⟩ : BufTy).Contents (Elt F)) : (⟨S50000x16, .f32⟩ : BufTy).Contents (Elt F) :=
  subf Z (broadcastInDim S50000x16 ![0, 1] bcast_S50000x1_S50000x16_0_1 (broadcastInDim S50000x1 ![0] bcast_S50000_S50000x1_0
    (maximumf (broadcastInDim S50000 ![] bcast_S_S50000 (constant S_ .f32 0xFF800000#32))
      (Host.reduce FloatOps.maximumf Z (constant S_ .f32 0xFF800000#32) reducesTo_S50000x16_S50000_d1 h_S_))))

/-- The log of every row's sum of exponentials subtracted from the row, as the host spells it. -/
def logSumTail (S : (⟨S50000x16, .f32⟩ : BufTy).Contents (Elt F)) : (⟨S50000x16, .f32⟩ : BufTy).Contents (Elt F) :=
  subf S (broadcastInDim S50000x16 ![0, 1] bcast_S50000x1_S50000x16_0_1 (Host.log (broadcastInDim S50000x1 ![0] bcast_S50000_S50000x1_0
    (Host.reduceAdd (Host.exp S) (constant S_ .f32 0x00000000#32) reducesTo_S50000x16_S50000_d1 h_S_))))

/-- The host's log-softmax of the rows. -/
def logSoftmaxRows (Z : (⟨S50000x16, .f32⟩ : BufTy).Contents (Elt F)) : (⟨S50000x16, .f32⟩ : BufTy).Contents (Elt F) := logSumTail (shiftedRows Z)

/-- A bias added to every row of a `[50000, 16]` array and the rows log-softmaxed. -/
def biasLogSoftmax (A : (⟨S50000x16, .f32⟩ : BufTy).Contents (Elt F)) (b : (⟨S16, .f32⟩ : BufTy).Contents (Elt F)) : (⟨S50000x16, .f32⟩ : BufTy).Contents (Elt F) := logSoftmaxRows (biasAdd16 A b)

/-- The last dense map: a product plus a bias on every row. -/
def denseBias (A : (⟨S50000x64, .f32⟩ : BufTy).Contents (Elt F)) (B : (⟨S64x64, .f32⟩ : BufTy).Contents (Elt F)) (b : (⟨S64, .f32⟩ : BufTy).Contents (Elt F)) : (⟨S50000x64, .f32⟩ : BufTy).Contents (Elt F) :=
  addf (Host.dotGeneral dot_S50000x64_S64x64_S50000x64_1_0_0_1_n_n none A B)
    (broadcastInDim S50000x64 ![0, 1] bcast_S1x64_S50000x64_0_1 (broadcastInDim S1x64 ![1] bcast_S64_S1x64_1 b))

/-! ## What each segment leaves in its result buffer -/

theorem s1_out (W : Valuation τ sig (Elt F)) : after s1 W (Proc.devRef .tc main_v0)
    = Host.dotGeneral dot_S50000x500_S500x128_S50000x128_1_0_0_1_n_n none (W (Proc.devRef .tc main_arg0)) (W (Proc.devRef .tc main_arg2)) := by
  after_results_simp <;> rfl

set_option maxHeartbeats 4000000 in
theorem s2_out (W : Valuation τ sig (Elt F)) : after s2 W (Proc.devRef .tc main_v13)
    = Cert.KernelIdeal.HostSteps.agg128 (W (Proc.devRef .tc main_v0)) (W (Proc.devRef .tc main_arg1)) (W (Proc.devRef .tc main_arg10)) (W (Proc.devRef .tc main_arg11)) := by
  after_results_simp <;> rfl

set_option maxHeartbeats 4000000 in
theorem s3_out (W : Valuation τ sig (Elt F)) : after s3 W (Proc.devRef .tc main_v17)
    = biasRelu128 (W (Proc.devRef .tc main_v13)) (W (Proc.devRef .tc main_arg3)) := by
  after_results_simp <;> rfl

theorem s4_out (W : Valuation τ sig (Elt F)) : after s4 W (Proc.devRef .tc main_v18)
    = Host.dotGeneral dot_S50000x128_S128x64_S50000x64_1_0_0_1_n_n none (W (Proc.devRef .tc main_v17)) (W (Proc.devRef .tc main_arg4)) := by
  after_results_simp <;> rfl

set_option maxHeartbeats 4000000 in
theorem s5_out (W : Valuation τ sig (Elt F)) : after s5 W (Proc.devRef .tc main_v31)
    = Cert.KernelIdeal.HostSteps.agg64 (W (Proc.devRef .tc main_v18)) (W (Proc.devRef .tc main_arg1)) (W (Proc.devRef .tc main_arg10)) (W (Proc.devRef .tc main_arg11)) := by
  after_results_simp <;> rfl

set_option maxHeartbeats 4000000 in
theorem s6_out (W : Valuation τ sig (Elt F)) : after s6 W (Proc.devRef .tc main_v35)
    = biasRelu64 (W (Proc.devRef .tc main_v31)) (W (Proc.devRef .tc main_arg5)) := by
  after_results_simp <;> rfl

theorem s7_out (W : Valuation τ sig (Elt F)) : after s7 W (Proc.devRef .tc main_v36)
    = Host.dotGeneral dot_S50000x64_S64x16_S50000x16_1_0_0_1_n_n none (W (Proc.devRef .tc main_v35)) (W (Proc.devRef .tc main_arg6)) := by
  after_results_simp <;> rfl

set_option maxHeartbeats 4000000 in
theorem s8_out (W : Valuation τ sig (Elt F)) : after s8 W (Proc.devRef .tc main_v49)
    = Cert.KernelIdeal.HostSteps.agg16 (W (Proc.devRef .tc main_v36)) (W (Proc.devRef .tc main_arg1)) (W (Proc.devRef .tc main_arg10)) (W (Proc.devRef .tc main_arg11)) := by
  after_results_simp <;> rfl

set_option maxHeartbeats 4000000 in
theorem s9_out (W : Valuation τ sig (Elt F)) : after s9 W (Proc.devRef .tc main_v52)
    = biasAdd16 (W (Proc.devRef .tc main_v49)) (W (Proc.devRef .tc main_arg7)) := by
  after_results_simp <;> rfl

set_option maxHeartbeats 4000000 in
theorem s10_out (W : Valuation τ sig (Elt F)) : after s10 W (Proc.devRef .tc main_call2_v5)
    = shiftedRows (W (Proc.devRef .tc main_v52)) := by
  after_results_simp
  simp only [TRef.toBuf, TRef.ofBuf, cast_eq]
  rfl

set_option maxHeartbeats 4000000 in
theorem s11_out (W : Valuation τ sig (Elt F)) : after s11 W (Proc.devRef .tc main_v53)
    = logSumTail (W (Proc.devRef .tc main_call2_v5)) := by
  after_results_simp <;> rfl

set_option maxHeartbeats 4000000 in
theorem s12_out (W : Valuation τ sig (Elt F)) : after s12 W (Proc.devRef .tc main_v57)
    = denseBias (W (Proc.devRef .tc main_v35)) (W (Proc.devRef .tc main_arg8)) (W (Proc.devRef .tc main_arg9)) := by
  after_results_simp <;> rfl

/-! ## What the segments leave alone -/

/-- A buffer no operation of a segment writes keeps its contents over the segment. -/
macro "seg_keeps" : tactic => `(tactic| (
  refine StableHlo.after_of_forall_not_mem _ _ (List.forall_iff_forall_mem.mp ?_)
  simp only [s1, s2, s3, s4, s5, s6, s7, s8, s9, s10, s11, s12, List.Forall, StableHlo.nullary_writes, StableHlo.unary_writes,
    StableHlo.binary_writes, StableHlo.ternary_writes, Finset.mem_singleton]
  repeat' apply And.intro
  all_goals exact StableHlo.devRef_ne_of_ne (by decide)))

/-- The argument arrays are in `W` what they are in `W₀`. -/
structure Kept (W₀ W : Valuation τ sig (Elt F)) : Prop where
  k0 : W (Proc.devRef .tc main_arg0) = W₀ (Proc.devRef .tc main_arg0)
  k1 : W (Proc.devRef .tc main_arg1) = W₀ (Proc.devRef .tc main_arg1)
  k2 : W (Proc.devRef .tc main_arg2) = W₀ (Proc.devRef .tc main_arg2)
  k3 : W (Proc.devRef .tc main_arg3) = W₀ (Proc.devRef .tc main_arg3)
  k4 : W (Proc.devRef .tc main_arg4) = W₀ (Proc.devRef .tc main_arg4)
  k5 : W (Proc.devRef .tc main_arg5) = W₀ (Proc.devRef .tc main_arg5)
  k6 : W (Proc.devRef .tc main_arg6) = W₀ (Proc.devRef .tc main_arg6)
  k7 : W (Proc.devRef .tc main_arg7) = W₀ (Proc.devRef .tc main_arg7)
  k8 : W (Proc.devRef .tc main_arg8) = W₀ (Proc.devRef .tc main_arg8)
  k9 : W (Proc.devRef .tc main_arg9) = W₀ (Proc.devRef .tc main_arg9)
  k10 : W (Proc.devRef .tc main_arg10) = W₀ (Proc.devRef .tc main_arg10)
  k11 : W (Proc.devRef .tc main_arg11) = W₀ (Proc.devRef .tc main_arg11)

theorem kept_refl (W : Valuation τ sig (Elt F)) : Kept W W := ⟨rfl, rfl, rfl, rfl, rfl, rfl, rfl, rfl, rfl, rfl, rfl, rfl⟩

theorem kept_s1 (W₀ W : Valuation τ sig (Elt F)) (h : Kept W₀ W) : Kept W₀ (after s1 W) := by
  obtain ⟨h0, h1, h2, h3, h4, h5, h6, h7, h8, h9, h10, h11⟩ := h
  constructor
  all_goals exact (by seg_keeps : after s1 W _ = W _).trans (by assumption)

theorem kept_s2 (W₀ W : Valuation τ sig (Elt F)) (h : Kept W₀ W) : Kept W₀ (after s2 W) := by
  obtain ⟨h0, h1, h2, h3, h4, h5, h6, h7, h8, h9, h10, h11⟩ := h
  constructor
  all_goals exact (by seg_keeps : after s2 W _ = W _).trans (by assumption)

theorem kept_s3 (W₀ W : Valuation τ sig (Elt F)) (h : Kept W₀ W) : Kept W₀ (after s3 W) := by
  obtain ⟨h0, h1, h2, h3, h4, h5, h6, h7, h8, h9, h10, h11⟩ := h
  constructor
  all_goals exact (by seg_keeps : after s3 W _ = W _).trans (by assumption)

theorem kept_s4 (W₀ W : Valuation τ sig (Elt F)) (h : Kept W₀ W) : Kept W₀ (after s4 W) := by
  obtain ⟨h0, h1, h2, h3, h4, h5, h6, h7, h8, h9, h10, h11⟩ := h
  constructor
  all_goals exact (by seg_keeps : after s4 W _ = W _).trans (by assumption)

theorem kept_s5 (W₀ W : Valuation τ sig (Elt F)) (h : Kept W₀ W) : Kept W₀ (after s5 W) := by
  obtain ⟨h0, h1, h2, h3, h4, h5, h6, h7, h8, h9, h10, h11⟩ := h
  constructor
  all_goals exact (by seg_keeps : after s5 W _ = W _).trans (by assumption)

theorem kept_s6 (W₀ W : Valuation τ sig (Elt F)) (h : Kept W₀ W) : Kept W₀ (after s6 W) := by
  obtain ⟨h0, h1, h2, h3, h4, h5, h6, h7, h8, h9, h10, h11⟩ := h
  constructor
  all_goals exact (by seg_keeps : after s6 W _ = W _).trans (by assumption)

theorem kept_s7 (W₀ W : Valuation τ sig (Elt F)) (h : Kept W₀ W) : Kept W₀ (after s7 W) := by
  obtain ⟨h0, h1, h2, h3, h4, h5, h6, h7, h8, h9, h10, h11⟩ := h
  constructor
  all_goals exact (by seg_keeps : after s7 W _ = W _).trans (by assumption)

theorem kept_s8 (W₀ W : Valuation τ sig (Elt F)) (h : Kept W₀ W) : Kept W₀ (after s8 W) := by
  obtain ⟨h0, h1, h2, h3, h4, h5, h6, h7, h8, h9, h10, h11⟩ := h
  constructor
  all_goals exact (by seg_keeps : after s8 W _ = W _).trans (by assumption)

theorem kept_s9 (W₀ W : Valuation τ sig (Elt F)) (h : Kept W₀ W) : Kept W₀ (after s9 W) := by
  obtain ⟨h0, h1, h2, h3, h4, h5, h6, h7, h8, h9, h10, h11⟩ := h
  constructor
  all_goals exact (by seg_keeps : after s9 W _ = W _).trans (by assumption)

theorem kept_s10 (W₀ W : Valuation τ sig (Elt F)) (h : Kept W₀ W) : Kept W₀ (after s10 W) := by
  obtain ⟨h0, h1, h2, h3, h4, h5, h6, h7, h8, h9, h10, h11⟩ := h
  constructor
  all_goals exact (by seg_keeps : after s10 W _ = W _).trans (by assumption)

theorem kept_s11 (W₀ W : Valuation τ sig (Elt F)) (h : Kept W₀ W) : Kept W₀ (after s11 W) := by
  obtain ⟨h0, h1, h2, h3, h4, h5, h6, h7, h8, h9, h10, h11⟩ := h
  constructor
  all_goals exact (by seg_keeps : after s11 W _ = W _).trans (by assumption)

theorem kept_s12 (W₀ W : Valuation τ sig (Elt F)) (h : Kept W₀ W) : Kept W₀ (after s12 W) := by
  obtain ⟨h0, h1, h2, h3, h4, h5, h6, h7, h8, h9, h10, h11⟩ := h
  constructor
  all_goals exact (by seg_keeps : after s12 W _ = W _).trans (by assumption)

/-! ## The two results, as functions of the argument arrays -/

section Layers

variable (x0 : (⟨S50000x500, .f32⟩ : BufTy).Contents (Elt F)) (x1 : (⟨S800000, .f32⟩ : BufTy).Contents (Elt F)) (x2 : (⟨S500x128, .f32⟩ : BufTy).Contents (Elt F)) (x3 : (⟨S128, .f32⟩ : BufTy).Contents (Elt F))
  (x4 : (⟨S128x64, .f32⟩ : BufTy).Contents (Elt F)) (x5 : (⟨S64, .f32⟩ : BufTy).Contents (Elt F)) (x6 : (⟨S64x16, .f32⟩ : BufTy).Contents (Elt F)) (x7 : (⟨S16, .f32⟩ : BufTy).Contents (Elt F))
  (x8 : (⟨S64x64, .f32⟩ : BufTy).Contents (Elt F)) (x9 : (⟨S64, .f32⟩ : BufTy).Contents (Elt F)) (x10 x11 : (⟨S800000, .i32⟩ : BufTy).Contents (Elt F))

/-- The first hidden layer. -/
def hidden1 : (⟨S50000x128, .f32⟩ : BufTy).Contents (Elt F) :=
  biasRelu128 (Cert.KernelIdeal.HostSteps.agg128 (Host.dotGeneral dot_S50000x500_S500x128_S50000x128_1_0_0_1_n_n none x0 x2) x1 x10 x11) x3

/-- The second hidden layer. -/
def hidden2 : (⟨S50000x64, .f32⟩ : BufTy).Contents (Elt F) :=
  biasRelu64 (Cert.KernelIdeal.HostSteps.agg64 (Host.dotGeneral dot_S50000x128_S128x64_S50000x64_1_0_0_1_n_n none (hidden1 x0 x1 x2 x3 x10 x11) x4) x1 x10 x11) x5

/-- The first result. -/
def out1 : (⟨S50000x16, .f32⟩ : BufTy).Contents (Elt F) :=
  biasLogSoftmax (Cert.KernelIdeal.HostSteps.agg16 (Host.dotGeneral dot_S50000x64_S64x16_S50000x16_1_0_0_1_n_n none (hidden2 x0 x1 x2 x3 x4 x5 x10 x11) x6) x1 x10 x11) x7

/-- The second result. -/
def out2 : (⟨S50000x64, .f32⟩ : BufTy).Contents (Elt F) :=
  denseBias (hidden2 x0 x1 x2 x3 x4 x5 x10 x11) x8 x9

end Layers

section Chain

variable (W : Valuation τ sig (Elt F))

set_option quotPrecheck false
local notation "U1" => after s1 W
local notation "U2" => after s2 (after s1 W)
local notation "U3" => after s3 (after s2 (after s1 W))
local notation "U4" => after s4 (after s3 (after s2 (after s1 W)))
local notation "U5" => after s5 (after s4 (after s3 (after s2 (after s1 W))))
local notation "U6" => after s6 (after s5 (after s4 (after s3 (after s2 (after s1 W)))))
local notation "U7" => after s7 (after s6 (after s5 (after s4 (after s3 (after s2 (after s1 W))))))
local notation "U8" => after s8 (after s7 (after s6 (after s5 (after s4 (after s3 (after s2 (after s1 W)))))))
local notation "U9" => after s9 (after s8 (after s7 (after s6 (after s5 (after s4 (after s3 (after s2 (after s1 W))))))))
local notation "U10" => after s10 (after s9 (after s8 (after s7 (after s6 (after s5 (after s4 (after s3 (after s2 (after s1 W)))))))))
local notation "U11" => after s11 (after s10 (after s9 (after s8 (after s7 (after s6 (after s5 (after s4 (after s3 (after s2 (after s1 W))))))))))
local notation "U12" => after s12 (after s11 (after s10 (after s9 (after s8 (after s7 (after s6 (after s5 (after s4 (after s3 (after s2 (after s1 W)))))))))))

local notation "a0" => W (Proc.devRef .tc main_arg0)
local notation "a1" => W (Proc.devRef .tc main_arg1)
local notation "a2" => W (Proc.devRef .tc main_arg2)
local notation "a3" => W (Proc.devRef .tc main_arg3)
local notation "a4" => W (Proc.devRef .tc main_arg4)
local notation "a5" => W (Proc.devRef .tc main_arg5)
local notation "a6" => W (Proc.devRef .tc main_arg6)
local notation "a7" => W (Proc.devRef .tc main_arg7)
local notation "a8" => W (Proc.devRef .tc main_arg8)
local notation "a9" => W (Proc.devRef .tc main_arg9)
local notation "a10" => W (Proc.devRef .tc main_arg10)
local notation "a11" => W (Proc.devRef .tc main_arg11)

theorem k1 : Kept W U1 := kept_s1 W W (kept_refl W)
theorem k2 : Kept W U2 := kept_s2 W _ (k1 W)
theorem k3 : Kept W U3 := kept_s3 W _ (k2 W)
theorem k4 : Kept W U4 := kept_s4 W _ (k3 W)
theorem k5 : Kept W U5 := kept_s5 W _ (k4 W)
theorem k6 : Kept W U6 := kept_s6 W _ (k5 W)
theorem k7 : Kept W U7 := kept_s7 W _ (k6 W)
theorem k8 : Kept W U8 := kept_s8 W _ (k7 W)
theorem k9 : Kept W U9 := kept_s9 W _ (k8 W)
theorem k10 : Kept W U10 := kept_s10 W _ (k9 W)
theorem k11 : Kept W U11 := kept_s11 W _ (k10 W)
theorem k12 : Kept W U12 := kept_s12 W _ (k11 W)

theorem at_hidden1 : U3 (Proc.devRef .tc main_v17) = hidden1 a0 a1 a2 a3 a10 a11 := by
  rw [s3_out, s2_out, s1_out, (k2 W).k3, (k1 W).k1, (k1 W).k10, (k1 W).k11]
  rfl

theorem at_hidden2 : U6 (Proc.devRef .tc main_v35) = hidden2 a0 a1 a2 a3 a4 a5 a10 a11 := by
  rw [s6_out, s5_out, s4_out, at_hidden1, (k5 W).k5, (k4 W).k1, (k4 W).k10, (k4 W).k11, (k3 W).k4]
  rfl

theorem at_out1 : U11 (Proc.devRef .tc main_v53) = out1 a0 a1 a2 a3 a4 a5 a6 a7 a10 a11 := by
  rw [s11_out, s10_out, s9_out, s8_out, s7_out, at_hidden2, (k8 W).k7, (k7 W).k1, (k7 W).k10, (k7 W).k11, (k6 W).k6]
  rfl

/-- The second hidden layer is still in its buffer when the last segment starts. -/
theorem hidden2_at11 : U11 (Proc.devRef .tc main_v35) = hidden2 a0 a1 a2 a3 a4 a5 a10 a11 :=
  calc U11 (Proc.devRef .tc main_v35)
    _ = U10 (Proc.devRef .tc main_v35) := by seg_keeps
    _ = U9 (Proc.devRef .tc main_v35) := by seg_keeps
    _ = U8 (Proc.devRef .tc main_v35) := by seg_keeps
    _ = U7 (Proc.devRef .tc main_v35) := by seg_keeps
    _ = U6 (Proc.devRef .tc main_v35) := by seg_keeps
    _ = _ := at_hidden2 W

/-- The first result after the whole line. -/
theorem result1 : after ops W (Proc.devRef .tc main_v53) = out1 a0 a1 a2 a3 a4 a5 a6 a7 a10 a11 := by
  rw [after_ops]
  exact (by seg_keeps : U12 (Proc.devRef .tc main_v53) = U11 (Proc.devRef .tc main_v53)).trans (at_out1 W)

/-- The second result after the whole line. -/
theorem result2 : after ops W (Proc.devRef .tc main_v57) = out2 a0 a1 a2 a3 a4 a5 a8 a9 a10 a11 := by
  rw [after_ops, s12_out, hidden2_at11, (k11 W).k8, (k11 W).k9]
  rfl

/-- The arguments after the whole line. -/
theorem args_kept : Kept W (after ops W) := by
  rw [after_ops]
  exact k12 W

end Chain

end Cert.ReferenceIdeal.Steps

end
-- ==== Proof.LibHostProduct.lean ====
/-
  The host's plain matrix product at the ideal values, where a product is an exact sum.

  For `A : [m, k]` and `B : [k, n]`, the host's `dot_general` contracting the second axis of `A` with the first of `B` has at
  `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.BridgeProducts.lean ====
/-
  The dense products: the host's `dot_general` and the kernel's tiled regions are one function at the ideal values.

  Read at `(p, q)` both are the sum over the shared coordinate `k` of `left (p, k) · right (k, q)`; the last dense map adds
  the bias entry of column `q` on both sides.
-/
import proofs.«156452_j86887188398704_1_alg».proof.Proof.RefSteps
import proofs.«156452_j86887188398704_1_alg».proof.Proof.Product0
import proofs.«156452_j86887188398704_1_alg».proof.Proof.Product2
import proofs.«156452_j86887188398704_1_alg».proof.Proof.Product4
import proofs.«156452_j86887188398704_1_alg».proof.Proof.ProductBias6
import proofs.«156452_j86887188398704_1_alg».proof.Proof.LibHostProduct
import proofs.«156452_j86887188398704_1_alg».proof.Proof.LibHostBroadcast
import proofs.«156452_j86887188398704_1_alg».proof.Proof.LibBroadcast
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen
open Idealize.ShloMosaic Idealize.ShloMosaic.ValueIdx

/-! ## The products -/

/-- The host's product `[50000, 500] · [500, 128]` is the whole product the kernel's region leaves. -/
theorem product1 (A : FVec Ideal S50000x500 .f32) (B : FVec Ideal S500x128 .f32) :
    Host.dotGeneral (F := Ideal) dot_S50000x500_S500x128_S50000x128_1_0_0_1_n_n none A B = Cert.KernelIdeal.Product0.prod A B := by
  funext i
  obtain ⟨p, q, rfl⟩ : ∃ (p : Fin 50000) (q : Fin 128), i = ix2 p q := ⟨i 0, i 1, eq_ix2 i⟩
  refine (Cert.HostProduct.dotGeneral_nn_apply (dot_S50000x500_S500x128_S50000x128_1_0_0_1_n_n).wf none A B p q).trans ?_
  unfold Cert.KernelIdeal.Product0.prod
  refine Finset.sum_congr rfl fun k _ => ?_
  have hl : (ix2 p k : (⟨2, ![50000, 500]⟩ : Shape).Idx) = Cert.KernelIdeal.Product0.lrow (ix2 p q) k :=
    funext fun a => Fin.ext (by match a with | ⟨0, _⟩ => rfl | ⟨1, _⟩ => rfl)
  have hr : (ix2 k q : (⟨2, ![500, 128]⟩ : Shape).Idx) = Cert.KernelIdeal.Product0.rcol (ix2 p q) k :=
    funext fun a => Fin.ext (by match a with | ⟨0, _⟩ => rfl | ⟨1, _⟩ => rfl)
  rw [hl, hr]

/-- The host's product `[50000, 128] · [128, 64]` is the whole product the kernel's region leaves. -/
theorem product2 (A : FVec Ideal S50000x128 .f32) (B : FVec Ideal S128x64 .f32) :
    Host.dotGeneral (F := Ideal) dot_S50000x128_S128x64_S50000x64_1_0_0_1_n_n none A B = Cert.KernelIdeal.Product2.prod A B := by
  funext i
  obtain ⟨p, q, rfl⟩ : ∃ (p : Fin 50000) (q : Fin 64), i = ix2 p q := ⟨i 0, i 1, eq_ix2 i⟩
  refine (Cert.HostProduct.dotGeneral_nn_apply (dot_S50000x128_S128x64_S50000x64_1_0_0_1_n_n).wf none A B p q).trans ?_
  unfold Cert.KernelIdeal.Product2.prod
  refine Finset.sum_congr rfl fun k _ => ?_
  have hl : (ix2 p k : (⟨2, ![50000, 128]⟩ : Shape).Idx) = Cert.KernelIdeal.Product2.lrow (ix2 p q) k :=
    funext fun a => Fin.ext (by match a with | ⟨0, _⟩ => rfl | ⟨1, _⟩ => rfl)
  have hr : (ix2 k q : (⟨2, ![128, 64]⟩ : Shape).Idx) = Cert.KernelIdeal.Product2.rcol (ix2 p q) k :=
    funext fun a => Fin.ext (by match a with | ⟨0, _⟩ => rfl | ⟨1, _⟩ => rfl)
  rw [hl, hr]

/-- The host's product `[50000, 64] · [64, 16]` is the whole product the kernel's region leaves. -/
theorem product3 (A : FVec Ideal S50000x64 .f32) (B : FVec Ideal S64x16 .f32) :
    Host.dotGeneral (F := Ideal) dot_S50000x64_S64x16_S50000x16_1_0_0_1_n_n none A B = Cert.KernelIdeal.Product4.prod A B := by
  funext i
  obtain ⟨p, q, rfl⟩ : ∃ (p : Fin 50000) (q : Fin 16), i = ix2 p q := ⟨i 0, i 1, eq_ix2 i⟩
  refine (Cert.HostProduct.dotGeneral_nn_apply (dot_S50000x64_S64x16_S50000x16_1_0_0_1_n_n).wf none A B p q).trans ?_
  unfold Cert.KernelIdeal.Product4.prod
  refine Finset.sum_congr rfl fun k _ => ?_
  have hl : (ix2 p k : (⟨2, ![50000, 64]⟩ : Shape).Idx) = Cert.KernelIdeal.Product4.lrow (ix2 p q) k :=
    funext fun a => Fin.ext (by match a with | ⟨0, _⟩ => rfl | ⟨1, _⟩ => rfl)
  have hr : (ix2 k q : (⟨2, ![64, 16]⟩ : Shape).Idx) = Cert.KernelIdeal.Product4.rcol (ix2 p q) k :=
    funext fun a => Fin.ext (by match a with | ⟨0, _⟩ => rfl | ⟨1, _⟩ => rfl)
  rw [hl, hr]

/-! ## The last dense map -/

/-- A product plus a bias on every row: the host's spelling and the kernel's region are one function. -/
theorem denseBias_eq (A : FVec Ideal S50000x64 .f32) (B : FVec Ideal S64x64 .f32) (b : FVec Ideal S64 .f32) (h : S64.ShapeCasts S1x64) :
    Cert.ReferenceIdeal.Steps.denseBias (F := Ideal) A B b = Cert.KernelIdeal.ProductBias6.prodBias A B (shapeCast S1x64 b h) := by
  funext i
  obtain ⟨p, q, rfl⟩ : ∃ (p : Fin 50000) (q : Fin 64), i = ix2 p q := ⟨i 0, i 1, eq_ix2 i⟩
  unfold Cert.ReferenceIdeal.Steps.denseBias Cert.KernelIdeal.ProductBias6.prodBias
  show Host.dotGeneral (F := Ideal) dot_S50000x64_S64x64_S50000x64_1_0_0_1_n_n none A B (ix2 p q)
      + broadcastInDim S50000x64 ![0, 1] bcast_S1x64_S50000x64_0_1 (broadcastInDim S1x64 ![1] bcast_S64_S1x64_1 b) (ix2 p q)
    = (∑ k : Fin 64, A (Cert.KernelIdeal.ProductBias6.lrow (ix2 p q) k) * B (Cert.KernelIdeal.ProductBias6.rcol (ix2 p q) k))
      + shapeCast S1x64 b h (Cert.KernelIdeal.ProductBias6.brow (ix2 p q))
  have hb : (Cert.KernelIdeal.ProductBias6.brow (ix2 p q) : (⟨2, ![1, 64]⟩ : Shape).Idx) = ix2 (0 : Fin 1) q :=
    funext fun a => Fin.ext (by match a with | ⟨0, _⟩ => rfl | ⟨1, _⟩ => rfl)
  rw [Cert.HostBroadcast.row_apply, hb, Cert.Layout.shapeCast_row_apply]
  refine congrArg (· + b (ix1 q)) ((Cert.HostProduct.dotGeneral_nn_apply (dot_S50000x64_S64x64_S50000x64_1_0_0_1_n_n).wf none A B p q).trans
    (Finset.sum_congr rfl fun k _ => ?_))
  have hl : (ix2 p k : (⟨2, ![50000, 64]⟩ : Shape).Idx) = Cert.KernelIdeal.ProductBias6.lrow (ix2 p q) k :=
    funext fun a => Fin.ext (by match a with | ⟨0, _⟩ => rfl | ⟨1, _⟩ => rfl)
  have hr : (ix2 k q : (⟨2, ![64, 64]⟩ : Shape).Idx) = Cert.KernelIdeal.ProductBias6.rcol (ix2 p q) k :=
    funext fun a => Fin.ext (by match a with | ⟨0, _⟩ => rfl | ⟨1, _⟩ => rfl)
  rw [hl, hr]

end Cert.Bridge

end
-- ==== Proof.BridgeRectify.lean ====
/-
  The rectified biases: the host's spelling and the kernel's regions are one function at the ideal values.

  Read at `(p, q)` both are `max (A (p, q) + b q) 0`: the host repeats the bias as a row down the array and the zero over
  the whole array; the kernel's region reads the bias re-laid as one row and the zero as a scalar.
-/
import proofs.«156452_j86887188398704_1_alg».proof.Proof.RefSteps
import proofs.«156452_j86887188398704_1_alg».proof.Proof.Rectify1
import proofs.«156452_j86887188398704_1_alg».proof.Proof.Rectify3
import proofs.«156452_j86887188398704_1_alg».proof.Proof.LibHostBroadcast
import proofs.«156452_j86887188398704_1_alg».proof.Proof.LibBroadcast
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen
open Idealize.ShloMosaic Idealize.ShloMosaic.ValueIdx

/-! ## The rectified biases -/

/-- A bias added to every row and rectified: the host's spelling and the kernel's region are one function. -/
theorem rectify128 (A : FVec Ideal S50000x128 .f32) (b : FVec Ideal S128 .f32) (h : S128.ShapeCasts S1x128) :
    Cert.ReferenceIdeal.Steps.biasRelu128 (F := Ideal) A b = Cert.KernelIdeal.Rectify1.biasRelu A (shapeCast S1x128 b h) := by
  funext i
  obtain ⟨p, q, rfl⟩ : ∃ (p : Fin 50000) (q : Fin 128), i = ix2 p q := ⟨i 0, i 1, eq_ix2 i⟩
  unfold Cert.ReferenceIdeal.Steps.biasRelu128 Cert.KernelIdeal.Rectify1.biasRelu
  show max (A (ix2 p q) + broadcastInDim S50000x128 ![0, 1] bcast_S1x128_S50000x128_0_1 (broadcastInDim S1x128 ![1] bcast_S128_S1x128_1 b) (ix2 p q))
      (broadcastInDim S50000x128 ![] bcast_S_S50000x128 (constant (F := Ideal) S_ .f32 0x00000000#32) (ix2 p q))
    = max (A (ix2 p q) + shapeCast S1x128 b h (Cert.KernelIdeal.Rectify1.brow (ix2 p q))) (Ideal.ofBits .f32 0x00000000#32)
  have hb : (Cert.KernelIdeal.Rectify1.brow (ix2 p q) : (⟨2, ![1, 128]⟩ : Shape).Idx) = ix2 (0 : Fin 1) q :=
    funext fun a => Fin.ext (by match a with | ⟨0, _⟩ => rfl | ⟨1, _⟩ => rfl)
  rw [Cert.HostBroadcast.row_apply, Cert.HostBroadcast.scalar_apply, hb, Cert.Layout.shapeCast_row_apply]
  rfl

/-- A bias added to every row and rectified: the host's spelling and the kernel's region are one function. -/
theorem rectify64 (A : FVec Ideal S50000x64 .f32) (b : FVec Ideal S64 .f32) (h : S64.ShapeCasts S1x64) :
    Cert.ReferenceIdeal.Steps.biasRelu64 (F := Ideal) A b = Cert.KernelIdeal.Rectify3.biasRelu A (shapeCast S1x64 b h) := by
  funext i
  obtain ⟨p, q, rfl⟩ : ∃ (p : Fin 50000) (q : Fin 64), i = ix2 p q := ⟨i 0, i 1, eq_ix2 i⟩
  unfold Cert.ReferenceIdeal.Steps.biasRelu64 Cert.KernelIdeal.Rectify3.biasRelu
  show max (A (ix2 p q) + broadcastInDim S50000x64 ![0, 1] bcast_S1x64_S50000x64_0_1 (broadcastInDim S1x64 ![1] bcast_S64_S1x64_1 b) (ix2 p q))
      (broadcastInDim S50000x64 ![] bcast_S_S50000x64 (constant (F := Ideal) S_ .f32 0x00000000#32) (ix2 p q))
    = max (A (ix2 p q) + shapeCast S1x64 b h (Cert.KernelIdeal.Rectify3.brow (ix2 p q))) (Ideal.ofBits .f32 0x00000000#32)
  have hb : (Cert.KernelIdeal.Rectify3.brow (ix2 p q) : (⟨2, ![1, 64]⟩ : Shape).Idx) = ix2 (0 : Fin 1) q :=
    funext fun a => Fin.ext (by match a with | ⟨0, _⟩ => rfl | ⟨1, _⟩ => rfl)
  rw [Cert.HostBroadcast.row_apply, Cert.HostBroadcast.scalar_apply, hb, Cert.Layout.shapeCast_row_apply]
  rfl

end Cert.Bridge

end
-- ==== Proof.BridgeSoftmax.lean ====
/-
  The log-softmax of the biased rows: the host's spelling and the kernel's region are one function at the ideal values.

  Both shift a row by the larger of `-∞` and its maximum folded from `-∞`, and subtract the log of the sum of the
  exponentials of the shifted row.  The host reduces with its own fold and sum (from `-∞` and from zero) and broadcasts
  the row values back as columns; the kernel's region is the row function itself.
-/
import proofs.«156452_j86887188398704_1_alg».proof.Proof.RefSteps
import proofs.«156452_j86887188398704_1_alg».proof.Proof.Softmax5
import proofs.«156452_j86887188398704_1_alg».proof.Proof.LibHostBroadcast
import proofs.«156452_j86887188398704_1_alg».proof.Proof.LibBroadcast
import proofs.«156452_j86887188398704_1_alg».proof.Proof.LibRowFolds
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen
open Idealize.ShloMosaic Idealize.ShloMosaic.ValueIdx

/-! ## The log-softmax -/

/-- The host's sum over the columns from zero, read at row `p`: the plain sum of the row. -/
theorem hostRowSum_at (E : FVec Ideal S50000x16 .f32) (p : Fin 50000) :
    Host.reduceAdd (F := Ideal) E (constant (F := Ideal) S_ .f32 0x00000000#32) reducesTo_S50000x16_S50000_d1 h_S_ (ix1 p) = ∑ k : Fin 16, E (ix2 p k) := by
  simp only [Host.reduceAdd, Ideal.hostReduceAdd_def]
  rw [Ideal.hostReduceAdd_single reducesTo_S50000x16_S50000_d1 (by decide)]
  show Ideal.ofBits .f32 0x00000000#32 + _ = _
  rw [Ideal.ofBits_zero_f32, zero_add]
  refine Finset.sum_congr rfl fun k _ => ?_
  exact congrArg E (Cert.RowFolds.lift_row _ p k)

/-- The host's shifted rows, read at `(p, q)`: the entry minus the row's shift. -/
theorem shiftedRows_at (Z : FVec Ideal S50000x16 .f32) (p : Fin 50000) (q : Fin 16) :
    Cert.ReferenceIdeal.Steps.shiftedRows (F := Ideal) Z (ix2 p q) = Z (ix2 p q) - Cert.KernelIdeal.Softmax5.rowShift fun k => Z (ix2 p k) := by
  haveI : Std.Commutative (max : EReal → EReal → EReal) := ⟨max_comm⟩
  haveI : Std.Associative (max : EReal → EReal → EReal) := ⟨max_assoc⟩
  have hop : (FloatOps.maximumf (F := Ideal) (φ := .f32)) = (max : EReal → EReal → EReal) := rfl
  have hfold := Cert.RowFolds.hostFold_apply (max : EReal → EReal → EReal) Z (constant (F := Ideal) S_ .f32 0xFF800000#32) reducesTo_S50000x16_S50000_d1 (by decide) h_S_ p
  unfold Cert.ReferenceIdeal.Steps.shiftedRows Cert.KernelIdeal.Softmax5.rowShift
  rw [hop]
  generalize Host.reduce (max : EReal → EReal → EReal) Z (constant (F := Ideal) S_ .f32 0xFF800000#32) reducesTo_S50000x16_S50000_d1 h_S_ = R at hfold ⊢
  rw [subf_apply, Cert.HostBroadcast.col_apply, maximumf_apply, Cert.HostBroadcast.scalar_apply, hfold]
  rfl

/-- The host's subtraction of the log of a row's sum of exponentials, read at `(p, q)`. -/
theorem logSumTail_at (S : FVec Ideal S50000x16 .f32) (p : Fin 50000) (q : Fin 16) :
    Cert.ReferenceIdeal.Steps.logSumTail (F := Ideal) S (ix2 p q) = S (ix2 p q) - Ideal.log (∑ k : Fin 16, Ideal.exp (S (ix2 p k))) := by
  have hsum := hostRowSum_at (Host.exp S) p
  unfold Cert.ReferenceIdeal.Steps.logSumTail
  generalize Host.reduceAdd (F := Ideal) (Host.exp S) (constant (F := Ideal) S_ .f32 0x00000000#32) reducesTo_S50000x16_S50000_d1 h_S_ = R at hsum ⊢
  show S (ix2 p q) - broadcastInDim S50000x16 ![0, 1] bcast_S50000x1_S50000x16_0_1
      (Host.log (broadcastInDim S50000x1 ![0] bcast_S50000_S50000x1_0 R)) (ix2 p q) = _
  rw [Cert.HostBroadcast.col_spread_apply]
  show S (ix2 p q) - Ideal.log (broadcastInDim S50000x1 ![0] bcast_S50000_S50000x1_0 R (ix2 p (0 : Fin 1))) = _
  rw [Cert.HostBroadcast.col_one_apply, hsum]
  rfl

/-- The host's log-softmax of the rows, read at `(p, q)`: the row function of row `p` at column `q`. -/
theorem logSoftmaxRows_at (Z : FVec Ideal S50000x16 .f32) (p : Fin 50000) (q : Fin 16) :
    Cert.ReferenceIdeal.Steps.logSoftmaxRows (F := Ideal) Z (ix2 p q) = Cert.KernelIdeal.Softmax5.lsmRow (fun k => Z (ix2 p k)) q := by
  unfold Cert.ReferenceIdeal.Steps.logSoftmaxRows Cert.KernelIdeal.Softmax5.lsmRow
  rw [logSumTail_at]
  simp only [shiftedRows_at]

/-- A bias added to every row and the rows log-softmaxed: the host's spelling and the kernel's region are one function. -/
theorem logSoftmax_eq (A : FVec Ideal S50000x16 .f32) (b : FVec Ideal S16 .f32) (h : S16.ShapeCasts S1x16) :
    Cert.ReferenceIdeal.Steps.biasLogSoftmax (F := Ideal) A b = Cert.KernelIdeal.Softmax5.biasLogSoftmax A (shapeCast S1x16 b h) := by
  funext i
  obtain ⟨p, q, rfl⟩ : ∃ (p : Fin 50000) (q : Fin 16), i = ix2 p q := ⟨i 0, i 1, eq_ix2 i⟩
  unfold Cert.ReferenceIdeal.Steps.biasLogSoftmax Cert.ReferenceIdeal.Steps.biasAdd16 Cert.KernelIdeal.Softmax5.biasLogSoftmax
  rw [logSoftmaxRows_at]
  refine congrArg₂ Cert.KernelIdeal.Softmax5.lsmRow (funext fun k => ?_) (Fin.ext rfl)
  show A (ix2 p k) + broadcastInDim S50000x16 ![0, 1] bcast_S1x16_S50000x16_0_1 (broadcastInDim S1x16 ![1] bcast_S16_S1x16_1 b) (ix2 p k)
    = A (Cert.KernelIdeal.Softmax5.rowAt (ix2 p q) k) + shapeCast S1x16 b h (Cert.KernelIdeal.Softmax5.biasAt k)
  have hr : (Cert.KernelIdeal.Softmax5.rowAt (ix2 p q) k : (⟨2, ![50000, 16]⟩ : Shape).Idx) = ix2 p k :=
    funext fun a => Fin.ext (by match a with | ⟨0, _⟩ => rfl | ⟨1, _⟩ => rfl)
  have hb : (Cert.KernelIdeal.Softmax5.biasAt k : (⟨2, ![1, 16]⟩ : Shape).Idx) = ix2 (0 : Fin 1) k :=
    funext fun a => Fin.ext (by match a with | ⟨0, _⟩ => rfl | ⟨1, _⟩ => rfl)
  rw [Cert.HostBroadcast.row_apply, hr, hb, Cert.Layout.shapeCast_row_apply]

end Cert.Bridge

end
-- ==== Proof.Bridge.lean ====
/-
  The two spellings of the whole computation are one function at the ideal values.

  The reference spells every layer with host operations over whole arrays; the kernel's regions leave the same layers as
  index-by-index functions of their input arrays.  Layer by layer they are one function (the three modules this one
  imports); the aggregation along the edges is the same chain of host operations on both sides and is never opened.
  So the composed hidden layers and the two results agree.
-/
import proofs.«156452_j86887188398704_1_alg».proof.Proof.RefSteps
import proofs.«156452_j86887188398704_1_alg».proof.Proof.KernelValue
import proofs.«156452_j86887188398704_1_alg».proof.Proof.BridgeProducts
import proofs.«156452_j86887188398704_1_alg».proof.Proof.BridgeRectify
import proofs.«156452_j86887188398704_1_alg».proof.Proof.BridgeSoftmax

set_option maxRecDepth 16384

noncomputable section

namespace Cert.Bridge

open Cert.ReferenceIdeal Cert.ReferenceIdeal.Gen
open Idealize.ShloMosaic

/-! ## The compositions -/

section Compose

variable (x0 : (⟨S50000x500, .f32⟩ : BufTy).Contents (Elt Ideal)) (x1 : (⟨S800000, .f32⟩ : BufTy).Contents (Elt Ideal))
  (x2 : (⟨S500x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))
  (x8 : (⟨S64x64, .f32⟩ : BufTy).Contents (Elt Ideal)) (x9 : (⟨S64, .f32⟩ : BufTy).Contents (Elt Ideal))
  (x10 x11 : (⟨S800000, .i32⟩ : BufTy).Contents (Elt Ideal))

theorem hidden1_eq : Cert.ReferenceIdeal.Steps.hidden1 (F := Ideal) x0 x1 x2 x3 x10 x11 = Cert.KernelIdeal.Value.hidden1 x0 x1 x2 x3 x10 x11 := by
  unfold Cert.ReferenceIdeal.Steps.hidden1 Cert.KernelIdeal.Value.hidden1
  rw [product1, rectify128]

theorem hidden2_eq : Cert.ReferenceIdeal.Steps.hidden2 (F := Ideal) x0 x1 x2 x3 x4 x5 x10 x11 = Cert.KernelIdeal.Value.hidden2 x0 x1 x2 x3 x4 x5 x10 x11 := by
  unfold Cert.ReferenceIdeal.Steps.hidden2 Cert.KernelIdeal.Value.hidden2
  rw [hidden1_eq, product2, rectify64]

theorem out1_eq : Cert.ReferenceIdeal.Steps.out1 (F := Ideal) x0 x1 x2 x3 x4 x5 x6 x7 x10 x11 = Cert.KernelIdeal.Value.out1 x0 x1 x2 x3 x4 x5 x6 x7 x10 x11 := by
  unfold Cert.ReferenceIdeal.Steps.out1 Cert.KernelIdeal.Value.out1
  rw [hidden2_eq, product3, logSoftmax_eq]

theorem out2_eq : Cert.ReferenceIdeal.Steps.out2 (F := Ideal) x0 x1 x2 x3 x4 x5 x8 x9 x10 x11 = Cert.KernelIdeal.Value.out2 x0 x1 x2 x3 x4 x5 x8 x9 x10 x11 := by
  unfold Cert.ReferenceIdeal.Steps.out2 Cert.KernelIdeal.Value.out2
  rw [hidden2_eq, denseBias_eq]

end Compose

end Cert.Bridge

end
-- ==== Proof.lean ====
/-
  A graph network of three layers, tiled over the node rows, against its plain reference: the proof of `Cert.Claim`.

  Both programs compute, for node features `x`, edge values, sources and targets: two hidden layers
  `h' = relu (agg (h · W) + b)`, a first result `log_softmax (agg (h₂ · W₃) + b₃)` over each row, and a second result
  `h₂ · Wₑ + bₑ`; `agg` picks the support's rows at the edges' wrapped source indices, scales them by the edge values and
  adds them into the rows the edges point to.  The kernel runs every dense step as a grid of ten row blocks (seven grid
  regions) and the aggregation as host operations between them; the reference is one line of host operations.

  The frames of the two kernel programs are the generated ones.  For the values at the ideal instance: the kernel's run
  ends with its two result buffers at the contents of the last segment boundary, which the region and host-stretch modules
  read back as the layer functions of the argument arrays; the reference's run ends with every buffer at the fold of its
  operations over the launch contents, which the segment module reads back as the same layers in the host's spelling; and
  the two spellings of each layer are one function at the ideal values — a rounding of the operands to a narrower format
  does nothing there, a product into a zero accumulator is the plain sum, a sum does not depend on its tiling, and the
  aggregation is the same chain of operations on both sides.  No finiteness of the inputs is used.  The ideal pass rewrote
  nothing, so there is nothing to preserve.
-/
import proofs.«156452_j86887188398704_1_alg».proof.Defs
import proofs.«156452_j86887188398704_1_alg».proof.Proof.Gen.Kernel
import proofs.«156452_j86887188398704_1_alg».proof.Proof.Gen.Kernel.Skeleton
import proofs.«156452_j86887188398704_1_alg».proof.Proof.Gen.Kernel.Launch
import proofs.«156452_j86887188398704_1_alg».proof.Proof.Gen.Kernel.Points
import proofs.«156452_j86887188398704_1_alg».proof.Proof.Gen.Kernel.Frame
import proofs.«156452_j86887188398704_1_alg».proof.Proof.Gen.KernelIdeal
import proofs.«156452_j86887188398704_1_alg».proof.Proof.Gen.KernelIdeal.Skeleton
import proofs.«156452_j86887188398704_1_alg».proof.Proof.Gen.KernelIdeal.Launch
import proofs.«156452_j86887188398704_1_alg».proof.Proof.Gen.KernelIdeal.Points
import proofs.«156452_j86887188398704_1_alg».proof.Proof.Gen.KernelIdeal.Frame
import proofs.«156452_j86887188398704_1_alg».proof.Proof.Gen.ReferenceIdeal
import proofs.«156452_j86887188398704_1_alg».proof.Proof.Gen.Pre_finite_inputs
import proofs.«156452_j86887188398704_1_alg».proof.Proof.KernelRun
import proofs.«156452_j86887188398704_1_alg».proof.Proof.KernelValue
import proofs.«156452_j86887188398704_1_alg».proof.Proof.RefRunP
import proofs.«156452_j86887188398704_1_alg».proof.Proof.RefSteps
import proofs.«156452_j86887188398704_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: no segment of its line writes one. -/
theorem frame_ri : Cert.frame_ReferenceIdeal := fun m ρ _ =>
  (θ_run Cert.ReferenceIdeal.defs _ _).mono (fun r h c =>
    have k := Cert.ReferenceIdeal.Steps.args_kept (StableHlo.launchContents m c)
    ⟨(h c _).trans k.k0, (h c _).trans k.k1, (h c _).trans k.k2, (h c _).trans k.k3, (h c _).trans k.k4, (h c _).trans k.k5, (h c _).trans k.k6, (h c _).trans k.k7, (h c _).trans k.k8, (h c _).trans k.k9, (h c _).trans k.k10, (h c _).trans k.k11⟩)
    (Cert.ReferenceIdeal.ValueP.run (F := Ideal) m ρ)

/-- The ideal pass rewrote no operation. -/
theorem preserves : Cert.preserves_Kernel_KernelIdeal := trivial

/-- From memories agreeing on the arguments both programs end with the same two results: the layer functions of the
    arguments, which the kernel reaches region by region and the reference segment by segment. -/
theorem algebraic : Cert.algebraic_KernelIdeal_ReferenceIdeal := by
  intro m ρ m' ρ' _ hagree
  refine ⟨fun c => Cert.KernelIdeal.Value.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Value.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KernelIdeal.Value.result1 m ρ c), (h c).2.1.trans (Cert.KernelIdeal.Value.result2 m ρ c), (h c).2.2⟩)
      (Cert.KernelIdeal.RunValue.run_results (F := Ideal) m ρ)
  · refine (θ_run Cert.ReferenceIdeal.defs _ _).mono (fun r h c => ?_) (Cert.ReferenceIdeal.ValueP.run (F := Ideal) m' ρ')
    have k := Cert.ReferenceIdeal.Steps.args_kept (StableHlo.launchContents m' c)
    obtain ⟨g0, g1, g2, g3, g4, g5, g6, g7, g8, g9, g10, g11⟩ := hagree c
    refine ⟨?_, ?_, (h c _).trans k.k0, (h c _).trans k.k1, (h c _).trans k.k2, (h c _).trans k.k3, (h c _).trans k.k4, (h c _).trans k.k5, (h c _).trans k.k6, (h c _).trans k.k7, (h c _).trans k.k8, (h c _).trans k.k9, (h c _).trans k.k10, (h c _).trans k.k11⟩
    · refine (h c Cert.ReferenceIdeal.main_v53).trans ((Cert.ReferenceIdeal.Steps.result1 (StableHlo.launchContents m' c)).trans ?_)
      show Cert.ReferenceIdeal.Steps.out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [g0, g1, g2, g3, g4, g5, g6, g7, g10, g11]
      exact Cert.Bridge.out1_eq _ _ _ _ _ _ _ _ _ _
    · refine (h c Cert.ReferenceIdeal.main_v57).trans ((Cert.ReferenceIdeal.Steps.result2 (StableHlo.launchContents m' c)).trans ?_)
      show Cert.ReferenceIdeal.Steps.out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [g0, g1, g2, g3, g4, g5, g8, g9, g10, g11]
      exact Cert.Bridge.out2_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
